-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S_ : Shape := ⟨0, ![]⟩

class Facts : Prop where
  bcast_S_S64x64x64x64 : S_.BroadcastsInDim S64x64x64x64 (![] : Fin 0 → Fin S64x64x64x64.rank)
  reducesTo_S64x64x64x64_S_d0_1_2_3 : S64x64x64x64.ReducesTo [0, 1, 2, 3] S_
  h_S_ : 0 < S_.numel
  bcast_S_S4x64x1x1 : S_.BroadcastsInDim S4x64x1x1 (![] : Fin 0 → Fin S4x64x1x1.rank)
  reducesTo_S4x64x1x1_S_d0_1_2_3 : S4x64x1x1.ReducesTo [0, 1, 2, 3] S_
  bcast_S_S4 : S_.BroadcastsInDim S4 (![] : Fin 0 → Fin S4.rank)
  reducesTo_S4_S_d0 : S4.ReducesTo [0] S_
  bcast_S_S64x4x1x1 : S_.BroadcastsInDim S64x4x1x1 (![] : Fin 0 → Fin S64x4x1x1.rank)
  reducesTo_S64x4x1x1_S_d0_1_2_3 : S64x4x1x1.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4x1x1 1) : IVec S_ 1 :=
  let main_c_5 : IVec S_ 1 := constantI S_ 1 1#1
  let main_v17 : IVec S_ 1 := (fun x v => Host.reduce IntOp.andi x v reducesTo_S64x4x1x1_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x64x64x64 .f32) (main_arg1 : FVec F S4x64x1x1 .f32) (main_arg2 : FVec F S4 .f32) (main_arg3 : FVec F S64x4x1x1 .f32) (main_arg4 : FVec F S64 .f32) : IVec S_ 1 :=
  let main_v0 : FVec F S64x64x64x64 .f32 := Host.absf main_arg0
  let main_cst : FVec F S_ .f32 := constant S_ .f32 0x7F800000#32
  let main_v1 : FVec F S64x64x64x64 .f32 := broadcastInDim S64x64x64x64 ![] bcast_S_S64x64x64x64 main_cst
  let main_v2 : IVec S64x64x64x64 1 := cmpf .olt main_v0 main_v1
  let main_c : IVec S_ 1 := constantI S_ 1 1#1
  let main_v3 : IVec S_ 1 := (fun x v => Host.reduce IntOp.andi x v reducesTo_S64x64x64x64_S_d0_1_2_3 h_S_) main_v2 main_c
  let main_v4 : FVec F S4x64x1x1 .f32 := Host.absf main_arg1
  let main_cst_0 : FVec F S_ .f32 := constant S_ .f32 0x7F800000#32
  let main_v5 : FVec F S4x64x1x1 .f32 := broadcastInDim S4x64x1x1 ![] bcast_S_S4x64x1x1 main_cst_0
  let main_v6 : IVec S4x64x1x1 1 := cmpf .olt main_v4 main_v5
  let main_c_1 : IVec S_ 1 := constantI S_ 1 1#1
  let main_v7 : IVec S_ 1 := (fun x v => Host.reduce IntOp.andi x v reducesTo_S4x64x1x1_S_d0_1_2_3 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4x1x1 .f32 := Host.absf main_arg3
  let main_cst_4 : FVec F S_ .f32 := constant S_ .f32 0x7F800000#32
  let main_v15 : FVec F S64x4x1x1 .f32 := broadcastInDim S64x4x1x1 ![] bcast_S_S64x4x1x1 main_cst_4
  let main_v16 : IVec S64x4x1x1 1 := cmpf .olt main_v14 main_v15
  fn_part1 (F := F) main_arg4 main_v13 main_v16
-- ==== Kernel.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S4x64 : Shape := ⟨2, ![4, 64]⟩
abbrev S64x4 : Shape := ⟨2, ![64, 4]⟩
abbrev S1x4 : Shape := ⟨2, ![1, 4]⟩
abbrev S64x1 : Shape := ⟨2, ![64, 1]⟩
abbrev S4x64x64x64 : Shape := ⟨4, ![4, 64, 64, 64]⟩
abbrev S1x64x64x64 : Shape := ⟨4, ![1, 64, 64, 64]⟩
abbrev S64x64x64 : Shape := ⟨3, ![64, 64, 64]⟩
abbrev S64x1x1 : Shape := ⟨3, ![64, 1, 1]⟩

abbrev nBuf : Space → Nat
  | .hbm => 11
  | .vmem => 8
  | .smem => 0
  | _ => 0

abbrev bufTy : (tb : Table) → Fin (tcTables nBuf tb) → BufTy
  | .hbm, ⟨0, _⟩ => ⟨S64x64x64x64, .f32⟩
  | .hbm, ⟨1, _⟩ => ⟨S4x64x1x1, .f32⟩
  | .hbm, ⟨2, _⟩ => ⟨S4, .f32⟩
  | .hbm, ⟨3, _⟩ => ⟨S64x4x1x1, .f32⟩
  | .hbm, ⟨4, _⟩ => ⟨S64, .f32⟩
  | .hbm, ⟨5, _⟩ => ⟨S4x64, .f32⟩
  | .hbm, ⟨6, _⟩ => ⟨S64x4, .f32⟩
  | .hbm, ⟨7, _⟩ => ⟨S1x4, .f32⟩
  | .hbm, ⟨8, _⟩ => ⟨S64x4, .f32⟩
  | .hbm, ⟨9, _⟩ => ⟨S64x1, .f32⟩
  | .hbm, ⟨10, _⟩ => ⟨S64x64x64x64, .f32⟩
  | .local _ .vmem, ⟨0, _⟩ => ⟨S4x64x64x64, .f32⟩
  | .local _ .vmem, ⟨1, _⟩ => ⟨S4x64x64x64, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S4x64x64x64, .f32⟩
  | .local _ .vmem, ⟨7, _⟩ => ⟨S4x64x64x64, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x64x1x1_S4x64 : S4x64x1x1.ShapeCasts S4x64
  transposes_S4x64_S64x4_1_0 : S4x64.Transposes [1, 0] S64x4
  shapeCasts_S4_S1x4 : S4.ShapeCasts S1x4
  shapeCasts_S64x4x1x1_S64x4 : S64x4x1x1.ShapeCasts S64x4
  shapeCasts_S64_S64x1 : S64.ShapeCasts S64x1
  inb_S4x64x64x64_S1x64x64x64_0_0_0_0 : ∀ a, (![0, 0, 0, 0] : Fin 4 → Nat) a + S1x64x64x64.size a ≤ S4x64x64x64.size a
  h_S1x64x64x64 : 0 < S1x64x64x64.numel
  shapeCasts_S1x64x64x64_S64x64x64 : S1x64x64x64.ShapeCasts S64x64x64
  reduces_S64x64x64_S64 : S64x64x64.Reduces [1, 2] S64
  shapeCasts_S64_S64x1x1 : S64.ShapeCasts S64x1x1
  shapeCasts_S64x1x1_S64x1 : S64x1x1.ShapeCasts S64x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S64x1_S64x4 : S64x1.Broadcasts S64x4
  reduces_S64x4_S4 : S64x4.Reduces [0] S4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  broadcasts_S64x1x1_S64x64x64 : S64x1x1.Broadcasts S64x64x64
  shapeCasts_S64x64x64_S1x64x64x64 : S64x64x64.ShapeCasts S1x64x64x64
  inb_S4x64x64x64_S1x64x64x64_1_0_0_0 : ∀ a, (![1, 0, 0, 0] : Fin 4 → Nat) a + S1x64x64x64.size a ≤ S4x64x64x64.size a
  inb_S4x64x64x64_S1x64x64x64_2_0_0_0 : ∀ a, (![2, 0, 0, 0] : Fin 4 → Nat) a + S1x64x64x64.size a ≤ S4x64x64x64.size a
  inb_S4x64x64x64_S1x64x64x64_3_0_0_0 : ∀ a, (![3, 0, 0, 0] : Fin 4 → Nat) a + S1x64x64x64.size a ≤ S4x64x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x64x64.size a ≤ S64x64x64x64.size a
  hwx0_0 : ∀ i : grid0.Coords, EltTy.bits .f32 = 32 ∨ (Rect.block (s := S64x64x64x64) S4x64x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x64x64.size a ≤ S64x64x64x64.size a
  hwx0_5 : ∀ i : grid0.Coords, EltTy.bits .f32 = 32 ∨ (Rect.block (s := S64x64x64x64) S4x64x64x64.size (cc0_transform_5 i) (hinb0_5 i)).WholeWords (EltTy.packing .f32)

variable [Facts₀]

abbrev win0_0 : Pipeline.Window sig grid0 :=
  Pipeline.Window.ofSpec (Memref.whole main_arg0) S4x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x64x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S64x64x4096 : Shape := ⟨3, ![64, 64, 4096]⟩
abbrev S4x64 : Shape := ⟨2, ![4, 64]⟩
abbrev S64x4 : Shape := ⟨2, ![64, 4]⟩
abbrev S1x4 : Shape := ⟨2, ![1, 4]⟩
abbrev S64x1 : Shape := ⟨2, ![64, 1]⟩
abbrev S1x64x4096 : Shape := ⟨3, ![1, 64, 4096]⟩
abbrev S64x4096 : Shape := ⟨2, ![64, 4096]⟩

abbrev nBuf : Space → Nat
  | .hbm => 13
  | .vmem => 8
  | .smem => 0
  | _ => 0

abbrev bufTy : (tb : Table) → Fin (tcTables nBuf tb) → BufTy
  | .hbm, ⟨0, _⟩ => ⟨S64x64x64x64, .f32⟩
  | .hbm, ⟨1, _⟩ => ⟨S4x64x1x1, .f32⟩
  | .hbm, ⟨2, _⟩ => ⟨S4, .f32⟩
  | .hbm, ⟨3, _⟩ => ⟨S64x4x1x1, .f32⟩
  | .hbm, ⟨4, _⟩ => ⟨S64, .f32⟩
  | .hbm, ⟨5, _⟩ => ⟨S64x64x4096, .f32⟩
  | .hbm, ⟨6, _⟩ => ⟨S4x64, .f32⟩
  | .hbm, ⟨7, _⟩ => ⟨S64x4, .f32⟩
  | .hbm, ⟨8, _⟩ => ⟨S1x4, .f32⟩
  | .hbm, ⟨9, _⟩ => ⟨S64x4, .f32⟩
  | .hbm, ⟨10, _⟩ => ⟨S64x1, .f32⟩
  | .hbm, ⟨11, _⟩ => ⟨S64x64x4096, .f32⟩
  | .hbm, ⟨12, _⟩ => ⟨S64x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x4096, .f32⟩
  | .local _ .vmem, ⟨7, _⟩ => ⟨S1x64x4096, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64x64x64_S64x64x4096 : S64x64x64x64.ShapeCasts S64x64x4096
  shapeCasts_S4x64x1x1_S4x64 : S4x64x1x1.ShapeCasts S4x64
  transposes_S4x64_S64x4_1_0 : S4x64.Transposes [1, 0] S64x4
  shapeCasts_S4_S1x4 : S4.ShapeCasts S1x4
  shapeCasts_S64x4x1x1_S64x4 : S64x4x1x1.ShapeCasts S64x4
  shapeCasts_S64_S64x1 : S64.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  broadcasts_S64x1_S64x4096 : S64x1.Broadcasts S64x4096
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S64x1_S64x4 : S64x1.Broadcasts S64x4
  reduces_S64x4_S4 : S64x4.Reduces [0] S4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x4096_S1x64x4096 : S64x4096.ShapeCasts S1x64x4096
  shapeCasts_S64x64x4096_S64x64x64x64 : S64x64x4096.ShapeCasts S64x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .f32 = 32 ∨ (Rect.block (s := S64x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x4096.size a ≤ S64x64x4096.size a
  hwx0_5 : ∀ i : grid0.Coords, EltTy.bits .f32 = 32 ∨ (Rect.block (s := S64x64x4096) S1x64x4096.size (cc0_transform_5 i) (hinb0_5 i)).WholeWords (EltTy.packing .f32)

variable [Facts₀]

abbrev win0_0 : Pipeline.Window sig grid0 :=
  Pipeline.Window.ofSpec (Memref.whole main_v0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Contrast.lean ====
/-
  The channel-attention layer, image by image, as vector terms over the extended reals.

  For one image X (64 channels, 4096 spatial entries per channel) the layer computes a per-channel statistic
  y c = sqrt (var c) + mean c, feeds it through a two-layer gate (64 -> 4 with a rectifier, 4 -> 64 with a logistic), and
  rescales every entry of channel c by the gate's value at c.  Two spellings of the variance occur: the ONE-PASS form
  max (E[x^2] - mean^2) 0 over a channel laid out as 64 x 64, and the TWO-PASS form E[(x - mean)^2] over the same channel
  laid out as one row of 4096.  Everything after the statistic is one and the same term, `gate`; nothing below ever looks
  inside it.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Contrast

open Idealize.ShloMosaic Idealize.ShloMosaic.ValueIdx

abbrev S64 : Shape := ⟨1, ![64]⟩
abbrev S4 : Shape := ⟨1, ![4]⟩
abbrev S64x1 : Shape := ⟨2, ![64, 1]⟩
abbrev S64x4 : Shape := ⟨2, ![64, 4]⟩
abbrev S1x4 : Shape := ⟨2, ![1, 4]⟩
abbrev S64x1x1 : Shape := ⟨3, ![64, 1, 1]⟩
abbrev S64x64x64 : Shape := ⟨3, ![64, 64, 64]⟩
abbrev S1x64x64x64 : Shape := ⟨4, ![1, 64, 64, 64]⟩
abbrev S64x4096 : Shape := ⟨2, ![64, 4096]⟩
abbrev S1x64x4096 : Shape := ⟨3, ![1, 64, 4096]⟩

/-! The shape facts the vector operations ask for, at these literal shapes. -/
theorem c_64x4 : S64x4.ShapeCasts S64x4 := by decide
theorem c_1x4 : S1x4.ShapeCasts S1x4 := by decide
theorem c_64x1 : S64x1.ShapeCasts S64x1 := by decide
theorem c_4_1x4 : S4.ShapeCasts S1x4 := by decide
theorem c_64_64x1 : S64.ShapeCasts S64x1 := by decide
theorem c_64_64x1x1 : S64.ShapeCasts S64x1x1 := by decide
theorem c_64x1x1_64x1 : S64x1x1.ShapeCasts S64x1 := by decide
theorem c_64x1_64x1x1 : S64x1.ShapeCasts S64x1x1 := by decide
theorem c_1x64x64x64_64x64x64 : S1x64x64x64.ShapeCasts S64x64x64 := by decide
theorem c_64x64x64_1x64x64x64 : S64x64x64.ShapeCasts S1x64x64x64 := by decide
theorem c_1x64x4096_64x4096 : S1x64x4096.ShapeCasts S64x4096 := by decide
theorem c_64x4096_1x64x4096 : S64x4096.ShapeCasts S1x64x4096 := by decide
theorem b_64x1_64x4 : S64x1.Broadcasts S64x4 := by decide
theorem b_1x4_64x4 : S1x4.Broadcasts S64x4 := by decide
theorem b_64x1x1_64x64x64 : S64x1x1.Broadcasts S64x64x64 := by decide
theorem b_64x1_64x4096 : S64x1.Broadcasts S64x4096 := by decide
theorem r_64x4_4 : S64x4.Reduces [0] S4 := by decide
theorem r_64x4_64 : S64x4.Reduces [1] S64 := by decide
theorem r_64x64x64_64 : S64x64x64.Reduces [1, 2] S64 := by decide
theorem r_64x4096_64 : S64x4096.Reduces [1] S64 := by decide

/-- The gate: from the per-channel statistic `y` (a column of 64), the first layer's weights `w1` (64 x 4, channel by
    hidden unit) and bias `b1`, the second layer's weights `w2` (64 x 4) and bias `b2`:
    z1 j = max (sum over c of w1 c j * y c + b1 j) 0,  z2 c = sum over j of w2 c j * z1 j + b2 c,  and the value
    1 / (1 + exp (0 - z2 c)). -/
def gate (y : FVec Ideal S64x1 .f32) (w1 : Vec Ideal S64x4 .f32) (b1 : Vec Ideal S1x4 .f32) (w2 : Vec Ideal S64x4 .f32)
    (b2 : Vec Ideal S64x1 .f32) : FVec Ideal S64x1 .f32 :=
  have v19 : FVec Ideal S64x4 .f32 := shapeCast S64x4 w1 c_64x4
  have v20 : FVec Ideal S64x4 .f32 := broadcastTo S64x4 y b_64x1_64x4
  have v21 : FVec Ideal S64x4 .f32 := mulf v19 v20
  have v22 : FVec Ideal S4 .f32 := multiReduction .add [0] S4 v21 0x00000000#32 r_64x4_4 (.inl rfl) rfl
  have v23 : FVec Ideal S1x4 .f32 := shapeCast S1x4 v22 c_4_1x4
  have v25 : FVec Ideal S1x4 .f32 := shapeCast S1x4 b1 c_1x4
  have v26 : FVec Ideal S1x4 .f32 := addf v23 v25
  have v27 : FVec Ideal S1x4 .f32 := broadcast S1x4 (Scalar.ofBits .f32 0x00000000#32)
  have v28 : FVec Ideal S1x4 .f32 := maximumf v26 v27
  have v30 : FVec Ideal S64x4 .f32 := shapeCast S64x4 w2 c_64x4
  have v31 : FVec Ideal S64x4 .f32 := broadcastTo S64x4 v28 b_1x4_64x4
  have v32 : FVec Ideal S64x4 .f32 := mulf v30 v31
  have v33 : FVec Ideal S64 .f32 := multiReduction .add [1] S64 v32 0x00000000#32 r_64x4_64 (.inl rfl) rfl
  have v34 : FVec Ideal S64x1 .f32 := shapeCast S64x1 v33 c_64_64x1
  have v36 : FVec Ideal S64x1 .f32 := shapeCast S64x1 b2 c_64x1
  have v37 : FVec Ideal S64x1 .f32 := addf v34 v36
  have v38 : FVec Ideal S64x1 .f32 := broadcast S64x1 (Scalar.ofBits .f32 0x00000000#32)
  have v39 : FVec Ideal S64x1 .f32 := subf v38 v37
  have v40 : FVec Ideal S64x1 .f32 := exp v39
  have v41 : FVec Ideal S64x1 .f32 := broadcast S64x1 (Scalar.ofBits .f32 0x3F800000#32)
  have v42 : FVec Ideal S64x1 .f32 := addf v41 v40
  have v43 : FVec Ideal S64x1 .f32 := broadcast S64x1 (Scalar.ofBits .f32 0x3F800000#32)
  divf v43 v42

/-- The statistic in its ONE-PASS form, of an image laid out channel x 64 x 64: with s c and q c the sums of the entries and
    of their squares over the channel, and a = 2^-12 (one over the 4096 entries),
    y c = sqrt (max (q c * a - (s c * a) * (s c * a)) 0) + s c * a. -/
def onePass (x : FVec Ideal S64x64x64 .f32) : FVec Ideal S64x1 .f32 :=
  have v2 : FVec Ideal S64 .f32 := multiReduction .add [1, 2] S64 x 0x00000000#32 r_64x64x64_64 (.inl rfl) rfl
  have v3 : FVec Ideal S64x1x1 .f32 := shapeCast S64x1x1 v2 c_64_64x1x1
  have v4 : FVec Ideal S64x64x64 .f32 := mulf x x
  have v5 : FVec Ideal S64 .f32 := multiReduction .add [1, 2] S64 v4 0x00000000#32 r_64x64x64_64 (.inl rfl) rfl
  have v6 : FVec Ideal S64x1x1 .f32 := shapeCast S64x1x1 v5 c_64_64x1x1
  have v7 : FVec Ideal S64x1x1 .f32 := broadcast S64x1x1 (Scalar.ofBits .f32 0x39800000#32)
  have v8 : FVec Ideal S64x1x1 .f32 := mulf v3 v7
  have v9 : FVec Ideal S64x1x1 .f32 := broadcast S64x1x1 (Scalar.ofBits .f32 0x39800000#32)
  have v10 : FVec Ideal S64x1x1 .f32 := mulf v6 v9
  have v11 : FVec Ideal S64x1x1 .f32 := mulf v8 v8
  have v12 : FVec Ideal S64x1x1 .f32 := subf v10 v11
  have v13 : FVec Ideal S64x1x1 .f32 := broadcast S64x1x1 (Scalar.ofBits .f32 0x00000000#32)
  have v14 : FVec Ideal S64x1x1 .f32 := maximumf v12 v13
  have v15 : FVec Ideal S64x1x1 .f32 := sqrt v14
  have v16 : FVec Ideal S64x1x1 .f32 := addf v15 v8
  shapeCast S64x1 v16 c_64x1x1_64x1

/-- The statistic in its TWO-PASS form, of the same image laid out channel x 4096: with mean c = s c * a,
    y c = sqrt ((sum over the channel of (x - mean c) * (x - mean c)) * a) + mean c. -/
def twoPass (x : FVec Ideal S64x4096 .f32) : FVec Ideal S64x1 .f32 :=
  have v2 : FVec Ideal S64 .f32 := multiReduction .add [1] S64 x 0x00000000#32 r_64x4096_64 (.inl rfl) rfl
  have v3 : FVec Ideal S64x1 .f32 := shapeCast S64x1 v2 c_64_64x1
  have v4 : FVec Ideal S64x1 .f32 := broadcast S64x1 (Scalar.ofBits .f32 0x39800000#32)
  have v5 : FVec Ideal S64x1 .f32 := mulf v3 v4
  have v6 : FVec Ideal S64x4096 .f32 := broadcastTo S64x4096 v5 b_64x1_64x4096
  have v7 : FVec Ideal S64x4096 .f32 := subf x v6
  have v8 : FVec Ideal S64x4096 .f32 := mulf v7 v7
  have v9 : FVec Ideal S64 .f32 := multiReduction .add [1] S64 v8 0x00000000#32 r_64x4096_64 (.inl rfl) rfl
  have v10 : FVec Ideal S64x1 .f32 := shapeCast S64x1 v9 c_64_64x1
  have v11 : FVec Ideal S64x1 .f32 := broadcast S64x1 (Scalar.ofBits .f32 0x39800000#32)
  have v12 : FVec Ideal S64x1 .f32 := mulf v10 v11
  have v13 : FVec Ideal S64x1 .f32 := sqrt v12
  addf v13 v5

/-- One image rescaled, in the 64 x 64 x 64 layout: every entry of channel c times the gate's value at c, the statistic
    taken in its one-pass form. -/
def rescaled3 (X : Vec Ideal S1x64x64x64 .f32) (w1 : Vec Ideal S64x4 .f32) (b1 : Vec Ideal S1x4 .f32)
    (w2 : Vec Ideal S64x4 .f32) (b2 : Vec Ideal S64x1 .f32) : FVec Ideal S1x64x64x64 .f32 :=
  have v1 : FVec Ideal S64x64x64 .f32 := shapeCast S64x64x64 X c_1x64x64x64_64x64x64
  have v44 : FVec Ideal S64x1 .f32 := gate (onePass v1) w1 b1 w2 b2
  have v45 : FVec Ideal S64x1x1 .f32 := shapeCast S64x1x1 v44 c_64x1_64x1x1
  have v46 : FVec Ideal S64x64x64 .f32 := broadcastTo S64x64x64 v45 b_64x1x1_64x64x64
  have v47 : FVec Ideal S64x64x64 .f32 := mulf v1 v46
  shapeCast S1x64x64x64 v47 c_64x64x64_1x64x64x64

/-- One image rescaled, in the 64 x 4096 layout, the statistic taken in its two-pass form. -/
def rescaled2 (X : Vec Ideal S1x64x4096 .f32) (w1 : Vec Ideal S64x4 .f32) (b1 : Vec Ideal S1x4 .f32)
    (w2 : Vec Ideal S64x4 .f32) (b2 : Vec Ideal S64x1 .f32) : FVec Ideal S1x64x4096 .f32 :=
  have v1 : FVec Ideal S64x4096 .f32 := shapeCast S64x4096 X c_1x64x4096_64x4096
  have v41 : FVec Ideal S64x1 .f32 := gate (twoPass v1) w1 b1 w2 b2
  have v44 : FVec Ideal S64x4096 .f32 := broadcastTo S64x4096 v41 b_64x1_64x4096
  have v45 : FVec Ideal S64x4096 .f32 := mulf v1 v44
  shapeCast S1x64x4096 v45 c_64x4096_1x64x4096

end Cert.Contrast

end
-- ==== Proof.RescaledAt.lean ====
import proofs.«118975_g2000604311919893_pallasbulk_952_6_alg».proof.Proof.Contrast

/-!
  The rescaled image read at one entry. In either layout, entry (c, ·) of the rescaled image is the entry of the image
  times the gate's value at channel c: the layout changes around the product (a leading unit axis dropped and put back,
  the gate's column of 64 values spread over a channel's entries) move no entry to another channel. Also here: the
  reshape between [64, 64, 64, 64] and [64, 64, 4096], which sends spatial position (h, w) to h * 64 + w.
-/

noncomputable section

namespace Cert.Contrast

open Idealize.ShloMosaic Idealize.ShloMosaic.ValueIdx

/-- Dropping the leading unit axis of a [1, 64, 64, 64] array: entry (c, h, w) is entry (0, c, h, w). -/
theorem cast3_apply (X : Vec Ideal S1x64x64x64 .f32) (c h w : Fin 64) :
    shapeCast S64x64x64 X c_1x64x64x64_64x64x64 (ix3 c h w) = X (ix4 (0 : Fin 1) c h w) :=
  shapeCast_1abc_abc_apply X c_1x64x64x64_64x64x64 c h w

/-- Dropping the leading unit axis of a [1, 64, 4096] array: entry (c, k) is entry (0, c, k). -/
theorem cast2_apply (X : Vec Ideal S1x64x4096 .f32) (c : Fin 64) (k : Fin 4096) :
    shapeCast S64x4096 X c_1x64x4096_64x4096 (ix2 c k) = X (ix3 (0 : Fin 1) c k) :=
  shapeCast_1ab_ab_apply X c_1x64x4096_64x4096 c k

/-- A column [64, 1] recast as [64, 1, 1]: entry (c, ·, ·) is entry (c, 0). -/
theorem cast_col_apply {α : Type} (g : S64x1.Idx → α) (c : Fin 64) (p q : Fin 1) :
    shapeCast S64x1x1 g c_64x1_64x1x1 (ix3 c p q) = g (ix2 c (0 : Fin 1)) :=
  shapeCast_apply g c_64x1_64x1x1 (ix3 c p q) (ix2 c (0 : Fin 1)) (by
    have hp : p.val = 0 := by omega
    have hq : q.val = 0 := by omega
    rw [Shape.rowMajor_val_two, Shape.rowMajor_val_three]
    show c.val * 1 + 0 = (c.val * 1 + p.val) * 1 + q.val
    omega)

/-- A [64, 1, 1] array spread over [64, 64, 64]: entry (c, h, w) is entry (c, 0, 0). -/
theorem bcast3_apply {α : Type} (v : S64x1x1.Idx → α) (c h w : Fin 64) :
    broadcastTo S64x64x64 v b_64x1x1_64x64x64 (ix3 c h w) = v (ix3 c (0 : Fin 1) (0 : Fin 1)) := by
  refine broadcastTo_apply v b_64x1x1_64x64x64 (ix3 c h w) (ix3 c (0 : Fin 1) (0 : Fin 1)) fun ax => ?_
  match ax with
  | ⟨0, _⟩ => rfl
  | ⟨1, _⟩ => rfl
  | ⟨2, _⟩ => rfl

/-- A column [64, 1] spread over [64, 4096]: entry (c, k) is entry (c, 0). -/
theorem bcast2_apply {α : Type} (v : S64x1.Idx → α) (c : Fin 64) (k : Fin 4096) :
    broadcastTo S64x4096 v b_64x1_64x4096 (ix2 c k) = v (ix2 c (0 : Fin 1)) := by
  refine broadcastTo_apply v b_64x1_64x4096 (ix2 c k) (ix2 c (0 : Fin 1)) fun ax => ?_
  match ax with
  | ⟨0, _⟩ => rfl
  | ⟨1, _⟩ => rfl

/-- An entry of the rescaled image, 64 x 64 x 64 layout: the entry times the gate's value at its channel. -/
theorem rescaled3_apply (X : Vec Ideal S1x64x64x64 .f32) (w1 : Vec Ideal S64x4 .f32) (b1 : Vec Ideal S1x4 .f32)
    (w2 : Vec Ideal S64x4 .f32) (b2 : Vec Ideal S64x1 .f32) (u : Fin 1) (c h w : Fin 64) :
    rescaled3 X w1 b1 w2 b2 (ix4 u c h w)
      = X (ix4 (0 : Fin 1) c h w) * gate (onePass (shapeCast S64x64x64 X c_1x64x64x64_64x64x64)) w1 b1 w2 b2 (ix2 c (0 : Fin 1)) := by
  unfold rescaled3
  show shapeCast S1x64x64x64
      (mulf (shapeCast S64x64x64 X c_1x64x64x64_64x64x64)
        (broadcastTo S64x64x64
          (shapeCast S64x1x1 (gate (onePass (shapeCast S64x64x64 X c_1x64x64x64_64x64x64)) w1 b1 w2 b2) c_64x1_64x1x1)
          b_64x1x1_64x64x64))
      c_64x64x64_1x64x64x64 (ix4 u c h w) = _
  refine (shapeCast_abc_1abc_apply _ c_64x64x64_1x64x64x64 u c h w).trans ?_
  refine (mulf_apply _ _ _).trans ?_
  refine congrArg₂ (· * ·) (cast3_apply X c h w) ?_
  refine (bcast3_apply _ c h w).trans ?_
  exact cast_col_apply _ c 0 0

/-- An entry of the rescaled image, 64 x 4096 layout: the entry times the gate's value at its channel. -/
theorem rescaled2_apply (X : Vec Ideal S1x64x4096 .f32) (w1 : Vec Ideal S64x4 .f32) (b1 : Vec Ideal S1x4 .f32)
    (w2 : Vec Ideal S64x4 .f32) (b2 : Vec Ideal S64x1 .f32) (u : Fin 1) (c : Fin 64) (k : Fin 4096) :
    rescaled2 X w1 b1 w2 b2 (ix3 u c k)
      = X (ix3 (0 : Fin 1) c k) * gate (twoPass (shapeCast S64x4096 X c_1x64x4096_64x4096)) w1 b1 w2 b2 (ix2 c (0 : Fin 1)) := by
  unfold rescaled2
  show shapeCast S1x64x4096
      (mulf (shapeCast S64x4096 X c_1x64x4096_64x4096)
        (broadcastTo S64x4096 (gate (twoPass (shapeCast S64x4096 X c_1x64x4096_64x4096)) w1 b1 w2 b2) b_64x1_64x4096))
      c_64x4096_1x64x4096 (ix3 u c k) = _
  refine (shapeCast_ab_1ab_apply _ c_64x4096_1x64x4096 u c k).trans ?_
  refine (mulf_apply _ _ _).trans ?_
  exact congrArg₂ (· * ·) (cast2_apply X c k) (bcast2_apply _ c k)

/-- [64, 64, 64, 64] flattened to [64, 64, 4096]: entry (n, c, h * 64 + w) is entry (n, c, h, w). -/
theorem flatten_apply {α : Type} (x : (⟨4, ![64, 64, 64, 64]⟩ : Shape).Idx → α)
    (hA : (⟨4, ![64, 64, 64, 64]⟩ : Shape).ShapeCasts ⟨3, ![64, 64, 4096]⟩) (n c h w : Fin 64) :
    shapeCast (⟨3, ![64, 64, 4096]⟩ : Shape) x hA (ix3 n c (⟨h.val * 64 + w.val, by omega⟩ : Fin 4096)) = x (ix4 n c h w) :=
  shapeCast_apply x hA _ _ (by
    rw [Shape.rowMajor_val_four, Shape.rowMajor_val_three]
    show ((n.val * 64 + c.val) * 64 + h.val) * 64 + w.val = (n.val * 64 + c.val) * 4096 + (h.val * 64 + w.val)
    omega)

/-- [64, 64, 4096] unflattened to [64, 64, 64, 64]: entry (n, c, h, w) is entry (n, c, h * 64 + w). -/
theorem unflatten_apply {α : Type} (y : (⟨3, ![64, 64, 4096]⟩ : Shape).Idx → α)
    (hB : (⟨3, ![64, 64, 4096]⟩ : Shape).ShapeCasts ⟨4, ![64, 64, 64, 64]⟩) (n c h w : Fin 64) :
    shapeCast (⟨4, ![64, 64, 64, 64]⟩ : Shape) y hB (ix4 n c h w) = y (ix3 n c (⟨h.val * 64 + w.val, by omega⟩ : Fin 4096)) :=
  shapeCast_apply y hB _ _ (by
    rw [Shape.rowMajor_val_three, Shape.rowMajor_val_four]
    show (n.val * 64 + c.val) * 4096 + (h.val * 64 + w.val) = ((n.val * 64 + c.val) * 64 + h.val) * 64 + w.val
    omega)

end Cert.Contrast

end
-- ==== Proof.KernelBlock.lean ====
/-
  The block of four images the first program's body handles at one grid point.

  The body reads image b of its input block (b = 0, 1, 2, 3), computes that image's per-channel statistic in the
  one-pass form, the gate, and stores the image rescaled into image b of the output block.  Each of the four stored
  values is therefore one and the same function, `Contrast.rescaled3`, of the image read and of the four small operands.
-/
import proofs.«118975_g2000604311919893_pallasbulk_952_6_alg».proof.Proof.Gen.KernelIdeal.Frame
import proofs.«118975_g2000604311919893_pallasbulk_952_6_alg».proof.Proof.Contrast
import proofs.«118975_g2000604311919893_pallasbulk_952_6_alg».proof.Proof.RescaledAt

noncomputable section

namespace Cert.KernelIdeal.Block

open Cert.KernelIdeal Cert.KernelIdeal.Gen Idealize.ShloMosaic Idealize.ShloMosaic.ValueIdx

/-- Image 0's stored value is the rescaled image. -/
theorem stored0 (X : Vec Ideal S1x64x64x64 .f32) (x1 : Vec Ideal S64x4 .f32) (x2 : Vec Ideal S1x4 .f32)
    (x3 : Vec Ideal S64x4 .f32) (x4 : Vec Ideal S64x1 .f32) :
    k0_pay4 (F := Ideal) (k0_pay2 X) (k0_pay3 X x1 x2 x3 x4) (Scalar.ofBits .f32 0x00000000#32)
      = Cert.Contrast.rescaled3 X x1 x2 x3 x4 := rfl

/-- Image 1's stored value is the rescaled image. -/
theorem stored1 (X : Vec Ideal S1x64x64x64 .f32) (x1 : Vec Ideal S64x4 .f32) (x2 : Vec Ideal S1x4 .f32)
    (x3 : Vec Ideal S64x4 .f32) (x4 : Vec Ideal S64x1 .f32) :
    k0_pay8 (F := Ideal) (k0_pay5 X) (k0_pay6 X x1) (k0_pay7 x2) x3 x4
      = Cert.Contrast.rescaled3 X x1 x2 x3 x4 := rfl

/-- Image 2's stored value is the rescaled image. -/
theorem stored2 (X : Vec Ideal S1x64x64x64 .f32) (x1 : Vec Ideal S64x4 .f32) (x2 : Vec Ideal S1x4 .f32)
    (x3 : Vec Ideal S64x4 .f32) (x4 : Vec Ideal S64x1 .f32) :
    k0_pay12 (F := Ideal) (k0_pay9 X) (k0_pay10 X) (k0_pay11 X) x1 x2 x3 x4
      = Cert.Contrast.rescaled3 X x1 x2 x3 x4 := rfl

/-- Image 3's stored value is the rescaled image. -/
theorem stored3 (X : Vec Ideal S1x64x64x64 .f32) (x1 : Vec Ideal S64x4 .f32) (x2 : Vec Ideal S1x4 .f32)
    (x3 : Vec Ideal S64x4 .f32) (x4 : Vec Ideal S64x1 .f32) :
    k0_pay1 (F := Ideal) (k0_pay13 X) (k0_pay14 X x1 x2 x3 x4)
      = Cert.Contrast.rescaled3 X x1 x2 x3 x4 := rfl

/-! ## The block as one function of its index -/

/-- One entry of the rescaled block: the entry of image b, channel c, at (h, w), times the gate's value at channel c, the
    statistic taken over image b alone. -/
def entry (x0 : Vec Ideal S4x64x64x64 .f32) (x1 : Vec Ideal S64x4 .f32) (x2 : Vec Ideal S1x4 .f32)
    (x3 : Vec Ideal S64x4 .f32) (x4 : Vec Ideal S64x1 .f32) (b : Fin 4) (c h w : Fin 64) : EReal :=
  x0 (ix4 b c h w)
    * Cert.Contrast.gate (Cert.Contrast.onePass (fun j => x0 (ix4 b (j 0 : Fin 64) (j 1 : Fin 64) (j 2 : Fin 64)))) x1 x2 x3 x4
        (ix2 c (0 : Fin 1))

/-- The rescaled block, entry by entry. -/
def rescaledBlock (x0 : Vec Ideal S4x64x64x64 .f32) (x1 : Vec Ideal S64x4 .f32) (x2 : Vec Ideal S1x4 .f32)
    (x3 : Vec Ideal S64x4 .f32) (x4 : Vec Ideal S64x1 .f32) : Vec Ideal S4x64x64x64 .f32 :=
  fun y => entry x0 x1 x2 x3 x4 (y 0) (y 1) (y 2) (y 3)

/-- Position (u, c, h, w) of the rectangle that holds image o of the block is position (o, c, h, w) of the block. -/
theorem emb_image (o : Nat) (ho : o < 4)
    (inb : ∀ a, (![o, 0, 0, 0] : Fin 4 → Nat) a + S1x64x64x64.size a ≤ S4x64x64x64.size a) (u : Fin 1) (c h w : Fin 64) :
    (Rect.unit (s := S4x64x64x64) ![o, 0, 0, 0] S1x64x64x64.size inb).emb (ix4 u c h w) = ix4 (⟨o, ho⟩ : Fin 4) c h w := by
  have hu : u.val = 0 := by omega
  refine funext fun a => Fin.ext ?_
  match a with
  | ⟨0, _⟩ => show o + 1 * u.val = o; omega
  | ⟨1, _⟩ => show 0 + 1 * c.val = c.val; omega
  | ⟨2, _⟩ => show 0 + 1 * h.val = h.val; omega
  | ⟨3, _⟩ => show 0 + 1 * w.val = w.val; omega

/-- So a load through that rectangle reads image o. -/
theorem ld_image (x0 : Vec Ideal S4x64x64x64 .f32) (o : Nat) (ho : o < 4)
    (inb : ∀ a, (![o, 0, 0, 0] : Fin 4 → Nat) a + S1x64x64x64.size a ≤ S4x64x64x64.size a) (u : Fin 1) (c h w : Fin 64) :
    View.ld x0 (Rect.unit (s := S4x64x64x64) ![o, 0, 0, 0] S1x64x64x64.size inb) (ix4 u c h w)
      = x0 (ix4 (⟨o, ho⟩ : Fin 4) c h w) :=
  congrArg x0 (emb_image o ho inb u c h w)

/-- The image read, laid out channel x 64 x 64, is the block's image o. -/
theorem slab_image (x0 : Vec Ideal S4x64x64x64 .f32) (o : Nat) (ho : o < 4)
    (inb : ∀ a, (![o, 0, 0, 0] : Fin 4 → Nat) a + S1x64x64x64.size a ≤ S4x64x64x64.size a) :
    shapeCast Cert.Contrast.S64x64x64 (View.ld x0 (Rect.unit (s := S4x64x64x64) ![o, 0, 0, 0] S1x64x64x64.size inb))
        Cert.Contrast.c_1x64x64x64_64x64x64
      = fun j => x0 (ix4 (⟨o, ho⟩ : Fin 4) (j 0 : Fin 64) (j 1 : Fin 64) (j 2 : Fin 64)) := by
  funext j
  obtain ⟨c, h, w, rfl⟩ : ∃ (c h w : Fin 64), j = ix3 c h w := ⟨j 0, j 1, j 2, eq_ix3 j⟩
  exact (Cert.Contrast.cast3_apply _ c h w).trans (ld_image x0 o ho inb 0 c h w)

/-- The value stored for image o, at an entry, is the block's entry. -/
theorem stored_entry (x0 : Vec Ideal S4x64x64x64 .f32) (x1 : Vec Ideal S64x4 .f32) (x2 : Vec Ideal S1x4 .f32)
    (x3 : Vec Ideal S64x4 .f32) (x4 : Vec Ideal S64x1 .f32) (o : Nat) (ho : o < 4)
    (inb : ∀ a, (![o, 0, 0, 0] : Fin 4 → Nat) a + S1x64x64x64.size a ≤ S4x64x64x64.size a) (u : Fin 1) (c h w : Fin 64) :
    Cert.Contrast.rescaled3 (View.ld x0 (Rect.unit (s := S4x64x64x64) ![o, 0, 0, 0] S1x64x64x64.size inb)) x1 x2 x3 x4 (ix4 u c h w)
      = entry x0 x1 x2 x3 x4 ⟨o, ho⟩ c h w := by
  refine (Cert.Contrast.rescaled3_apply _ x1 x2 x3 x4 u c h w).trans ?_
  rw [ld_image x0 o ho inb 0 c h w, slab_image x0 o ho inb]
  rfl

/-- The rescaled block at a position of image o's rectangle. -/
theorem rescaledBlock_emb (x0 : Vec Ideal S4x64x64x64 .f32) (x1 : Vec Ideal S64x4 .f32) (x2 : Vec Ideal S1x4 .f32)
    (x3 : Vec Ideal S64x4 .f32) (x4 : Vec Ideal S64x1 .f32) (o : Nat) (ho : o < 4)
    (inb : ∀ a, (![o, 0, 0, 0] : Fin 4 → Nat) a + S1x64x64x64.size a ≤ S4x64x64x64.size a) (u : Fin 1) (c h w : Fin 64) :
    rescaledBlock x0 x1 x2 x3 x4 ((Rect.unit (s := S4x64x64x64) ![o, 0, 0, 0] S1x64x64x64.size inb).emb (ix4 u c h w))
      = entry x0 x1 x2 x3 x4 ⟨o, ho⟩ c h w := by
  rw [emb_image o ho inb u c h w]
  rfl

theorem zeros2 : (![0, 0] : Fin 2 → Nat) = fun _ => 0 := funext fun a => by fin_cases a <;> rfl

/-- WHAT THE BODY LEAVES in the output block: the four stores tile it, and each holds the rescaled block's entries. -/
theorem out_eq (x0 : Vec Ideal S4x64x64x64 .f32) (x1 : Vec Ideal S64x4 .f32) (x2 : Vec Ideal S1x4 .f32)
    (x3 : Vec Ideal S64x4 .f32) (x4 : Vec Ideal S64x1 .f32) :
    out0_5 (F := Ideal) x0 x1 x2 x3 x4 = rescaledBlock x0 x1 x2 x3 x4 := by
  funext y
  unfold out0_5
  refine View.canon_apply_of_pieces (Val := Elt Ideal) (e := .f32) (rescaledBlock x0 x1 x2 x3 x4) _ ?_ y (cover0_5 _ _ _ _ y)
  intro p hp z
  simp only [List.mem_cons, List.not_mem_nil, or_false] at hp
  rcases hp with rfl | rfl | rfl | rfl
  · obtain ⟨u, c, h, w, rfl⟩ : ∃ (u : Fin 1) (c h w : Fin 64), z = ix4 u c h w := ⟨z 0, z 1, z 2, z 3, eq_ix4 z⟩
    show k0_pay1 (F := Ideal) (k0_pay13 (View.ld x0 r0_6)) (k0_pay14 (View.ld x0 r0_6) (View.ld x1 r0_1) (View.ld x2 r0_2) (View.ld x3 r0_1) (View.ld x4 r0_3)) (ix4 u c h w) = rescaledBlock x0 x1 x2 x3 x4 (r0_6.emb (ix4 u c h w))
    rw [stored3, View.ld_unit_zero (S := S64x4) zeros2, View.ld_unit_zero (S := S1x4) zeros2, View.ld_unit_zero (S := S64x4) zeros2, View.ld_unit_zero (S := S64x1) zeros2]
    exact (stored_entry x0 x1 x2 x3 x4 3 (by omega) _ u c h w).trans (rescaledBlock_emb x0 x1 x2 x3 x4 3 (by omega) _ u c h w).symm
  · obtain ⟨u, c, h, w, rfl⟩ : ∃ (u : Fin 1) (c h w : Fin 64), z = ix4 u c h w := ⟨z 0, z 1, z 2, z 3, eq_ix4 z⟩
    show k0_pay12 (F := Ideal) (k0_pay9 (View.ld x0 r0_5)) (k0_pay10 (View.ld x0 r0_5)) (k0_pay11 (View.ld x0 r0_5)) (View.ld x1 r0_1) (View.ld x2 r0_2) (View.ld x3 r0_1) (View.ld x4 r0_3) (ix4 u c h w) = rescaledBlock x0 x1 x2 x3 x4 (r0_5.emb (ix4 u c h w))
    rw [stored2, View.ld_unit_zero (S := S64x4) zeros2, View.ld_unit_zero (S := S1x4) zeros2, View.ld_unit_zero (S := S64x4) zeros2, View.ld_unit_zero (S := S64x1) zeros2]
    exact (stored_entry x0 x1 x2 x3 x4 2 (by omega) _ u c h w).trans (rescaledBlock_emb x0 x1 x2 x3 x4 2 (by omega) _ u c h w).symm
  · obtain ⟨u, c, h, w, rfl⟩ : ∃ (u : Fin 1) (c h w : Fin 64), z = ix4 u c h w := ⟨z 0, z 1, z 2, z 3, eq_ix4 z⟩
    show k0_pay8 (F := Ideal) (k0_pay5 (View.ld x0 r0_4)) (k0_pay6 (View.ld x0 r0_4) (View.ld x1 r0_1)) (k0_pay7 (View.ld x2 r0_2)) (View.ld x3 r0_1) (View.ld x4 r0_3) (ix4 u c h w) = rescaledBlock x0 x1 x2 x3 x4 (r0_4.emb (ix4 u c h w))
    rw [stored1, View.ld_unit_zero (S := S64x4) zeros2, View.ld_unit_zero (S := S1x4) zeros2, View.ld_unit_zero (S := S64x4) zeros2, View.ld_unit_zero (S := S64x1) zeros2]
    exact (stored_entry x0 x1 x2 x3 x4 1 (by omega) _ u c h w).trans (rescaledBlock_emb x0 x1 x2 x3 x4 1 (by omega) _ u c h w).symm
  · obtain ⟨u, c, h, w, rfl⟩ : ∃ (u : Fin 1) (c h w : Fin 64), z = ix4 u c h w := ⟨z 0, z 1, z 2, z 3, eq_ix4 z⟩
    show k0_pay4 (F := Ideal) (k0_pay2 (View.ld x0 r0_0)) (k0_pay3 (View.ld x0 r0_0) (View.ld x1 r0_1) (View.ld x2 r0_2) (View.ld x3 r0_1) (View.ld x4 r0_3)) (Scalar.ofBits .f32 0x00000000#32) (ix4 u c h w) = rescaledBlock x0 x1 x2 x3 x4 (r0_0.emb (ix4 u c h w))
    rw [stored0, View.ld_unit_zero (S := S64x4) zeros2, View.ld_unit_zero (S := S1x4) zeros2, View.ld_unit_zero (S := S64x4) zeros2, View.ld_unit_zero (S := S64x1) zeros2]
    exact (stored_entry x0 x1 x2 x3 x4 0 (by omega) _ u c h w).trans (rescaledBlock_emb x0 x1 x2 x3 x4 0 (by omega) _ u c h w).symm

end Cert.KernelIdeal.Block

end
-- ==== Proof.Layer.lean ====
/-
  The layer on the whole batch, as ONE function of the argument arrays.

  Entry (n, c, h, w) of the result is the entry of the input times the gate's value at channel c, where the gate is fed the
  statistic of image n alone (taken in the one-pass form; `ContrastEq` shows the two-pass form gives the same column on
  finite data).  The four small operands reach the gate through the host's relayouts of the weights and biases, written
  here once as `firstWeights` … `secondBias`; both programs prepare them by these same operations.
-/
import proofs.«118975_g2000604311919893_pallasbulk_952_6_alg».proof.Proof.Contrast

noncomputable section

namespace Cert.Contrast

open Idealize.ShloMosaic Idealize.ShloMosaic.ValueIdx

abbrev S64x64x64x64 : Shape := ⟨4, ![64, 64, 64, 64]⟩
abbrev S64x64x4096 : Shape := ⟨3, ![64, 64, 4096]⟩

/-- Image n of the batch, laid out channel x 64 x 64. -/
def image (x : Vec Ideal S64x64x64x64 .f32) (n : Fin 64) : FVec Ideal S64x64x64 .f32 :=
  fun j => x (ix4 n (j 0 : Fin 64) (j 1 : Fin 64) (j 2 : Fin 64))

/-- The layer: every entry times the gate's value at its channel, the statistic taken over its own image. -/
def layer (x : Vec Ideal S64x64x64x64 .f32) (w1 : Vec Ideal S64x4 .f32) (b1 : Vec Ideal S1x4 .f32)
    (w2 : Vec Ideal S64x4 .f32) (b2 : Vec Ideal S64x1 .f32) : Vec Ideal S64x64x64x64 .f32 :=
  fun i => x i * gate (onePass (image x (i 0))) w1 b1 w2 b2 (ix2 (i 1 : Fin 64) (0 : Fin 1))

theorem layer_apply (x : Vec Ideal S64x64x64x64 .f32) (w1 : Vec Ideal S64x4 .f32) (b1 : Vec Ideal S1x4 .f32)
    (w2 : Vec Ideal S64x4 .f32) (b2 : Vec Ideal S64x1 .f32) (n c h w : Fin 64) :
    layer x w1 b1 w2 b2 (ix4 n c h w) = x (ix4 n c h w) * gate (onePass (image x n)) w1 b1 w2 b2 (ix2 c (0 : Fin 1)) := rfl

end Cert.Contrast

end
-- ==== Proof.KernelArray.lean ====
/-
  From blocks to the whole array, for the first program.

  Grid point t (of 16) handles images 4t, 4t+1, 4t+2, 4t+3: its input and output blocks are rows 4t … 4t+3 of the
  batch axis, whole on the other three axes, and the four small operands are staged whole at every point.  So what point t
  writes back is block t of the layer's result on the whole batch, the 16 blocks tile the array, and after the run the
  output array IS the layer of the arrays the region found.
-/
import proofs.«118975_g2000604311919893_pallasbulk_952_6_alg».proof.Proof.Gen.KernelIdeal.Value
import proofs.«118975_g2000604311919893_pallasbulk_952_6_alg».proof.Proof.KernelBlock
import proofs.«118975_g2000604311919893_pallasbulk_952_6_alg».proof.Proof.Layer

noncomputable section

namespace Cert.KernelIdeal.Whole

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The index maps, decided over the 16 grid points: the big windows sit at batch block t, the small ones at the origin. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_5.index t (0 : Fin 4) = t.val ∧ win0_5.index t (1 : Fin 4) = 0 ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every batch block is some point's. -/
theorem index_onto : ∀ q : Fin 16, ∃ t : Fin cfg0.N, win0_5.index t (0 : Fin 4) = q.val :=
  (by decide +kernel : ∀ q : Fin 16, ∃ t : Fin grid0.N, win0_5.index t (0 : Fin 4) = q.val)

/-! ## The small operands are staged whole -/

theorem small1 (c : Dev nD) (t : Fin cfg0.N) : (iblk m c 1 t : S64x4.Idx → EReal) = V m c main_v1 := by
  obtain ⟨-, -, -, -, -, -, -, -, e0, e1, -⟩ := index_facts t
  funext y
  show V m c main_v1 (((cfg0.win 1).blk t).view.emb y) = V m c main_v1 y
  have e : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 4 + 1 * (y 1).val = (y 1).val; omega
  rw [e]

theorem small2 (c : Dev nD) (t : Fin cfg0.N) : (iblk m c 2 t : S1x4.Idx → EReal) = V m c main_v2 := by
  obtain ⟨-, -, -, -, -, -, -, -, -, -, e0, e1, -⟩ := index_facts t
  funext y
  show V m c main_v2 (((cfg0.win 2).blk t).view.emb y) = V m c main_v2 y
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 4 + 1 * (y 1).val = (y 1).val; omega
  rw [e]

theorem small3 (c : Dev nD) (t : Fin cfg0.N) : (iblk m c 3 t : S64x4.Idx → EReal) = V m c main_v3 := by
  obtain ⟨-, -, -, -, -, -, -, -, -, -, -, -, e0, e1, -⟩ := index_facts t
  funext y
  show V m c main_v3 (((cfg0.win 3).blk t).view.emb y) = V m c main_v3 y
  have e : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 4 + 1 * (y 1).val = (y 1).val; omega
  rw [e]

theorem small4 (c : Dev nD) (t : Fin cfg0.N) : (iblk m c 4 t : S64x1.Idx → EReal) = V m c main_v4 := by
  obtain ⟨-, -, -, -, -, -, -, -, -, -, -, -, -, -, e0, e1⟩ := index_facts t
  funext y
  show V m c main_v4 (((cfg0.win 4).blk t).view.emb y) = V m c main_v4 y
  have e : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 1 + 1 * (y 1).val = (y 1).val; omega
  rw [e]

/-! ## The input block is four images of the batch -/

theorem input_block (c : Dev nD) (t : Fin cfg0.N) (b : Fin 4) (cc h w : Fin 64) (hb : t.val * 4 + b.val < 64) :
    iblk m c 0 t (ix4 b cc h w) = V m c main_arg0 (ix4 (⟨t.val * 4 + b.val, hb⟩ : Fin 64) cc h w) := by
  obtain ⟨e0, e1, e2, e3, -⟩ := index_facts t
  show V m c main_arg0 (((cfg0.win 0).blk t).view.emb (ix4 b cc h w)) = _
  have e : ((cfg0.win 0).blk t).view.emb (ix4 b cc h w) = ix4 (⟨t.val * 4 + b.val, hb⟩ : Fin 64) cc h w := by
    funext a; apply Fin.ext
    match a with
    | ⟨0, _⟩ => show win0_0.index t (0 : Fin 4) * 4 + 1 * b.val = t.val * 4 + b.val; omega
    | ⟨1, _⟩ => show win0_0.index t (1 : Fin 4) * 64 + 1 * cc.val = cc.val; omega
    | ⟨2, _⟩ => show win0_0.index t (2 : Fin 4) * 64 + 1 * h.val = h.val; omega
    | ⟨3, _⟩ => show win0_0.index t (3 : Fin 4) * 64 + 1 * w.val = w.val; omega
  rw [e]

/-- An entry of a block whose image b is image n of the batch is the layer's entry of image n. -/
theorem entry_eq_layer (x0 : Vec Ideal S4x64x64x64 .f32) (A : Vec Ideal Cert.Contrast.S64x64x64x64 .f32)
    (x1 : Vec Ideal S64x4 .f32) (x2 : Vec Ideal S1x4 .f32) (x3 : Vec Ideal S64x4 .f32) (x4 : Vec Ideal S64x1 .f32)
    (b : Fin 4) (n : Fin 64) (hA : ∀ c h w : Fin 64, x0 (ix4 b c h w) = A (ix4 n c h w)) (cc h w : Fin 64) :
    Block.entry x0 x1 x2 x3 x4 b cc h w = Cert.Contrast.layer A x1 x2 x3 x4 (ix4 n cc h w) := by
  have hs : (fun j : Cert.Contrast.S64x64x64.Idx => x0 (ix4 b (j 0 : Fin 64) (j 1 : Fin 64) (j 2 : Fin 64)))
      = Cert.Contrast.image A n := funext fun j => hA _ _ _
  unfold Block.entry
  rw [Cert.Contrast.layer_apply, hA cc h w, hs]

/-! ## What a point writes back, the cover, the array -/

/-- WHAT POINT t WRITES BACK is block t of the layer of the arrays the region found. -/
theorem flushed_eq (c : Dev nD) (t : Fin cfg0.N) :
    (dats m 0 c).flushed 5 t = ((cfg0.win 5).blk t).view.read (Elt Ideal)
      (Cert.Contrast.layer (V m c main_arg0) (V m c main_v1) (V m c main_v2) (V m c main_v3) (V m c main_v4)) := by
  rw [Value.flushed5, Block.out_eq]
  obtain ⟨-, -, -, -, o0, o1, o2, o3, -⟩ := index_facts t
  have ht : t.val < 16 := lt_of_lt_of_eq t.isLt N_0
  funext j
  obtain ⟨b, cc, h, w, rfl⟩ : ∃ (b : Fin 4) (cc h w : Fin 64), j = ix4 b cc h w := ⟨j 0, j 1, j 2, j 3, eq_ix4 j⟩
  have hb : t.val * 4 + b.val < 64 := by have := b.isLt; omega
  have eo : ((cfg0.win 5).blk t).view.emb (ix4 b cc h w) = ix4 (⟨t.val * 4 + b.val, hb⟩ : Fin 64) cc h w := by
    funext a; apply Fin.ext
    match a with
    | ⟨0, _⟩ => show win0_5.index t (0 : Fin 4) * 4 + 1 * b.val = t.val * 4 + b.val; omega
    | ⟨1, _⟩ => show win0_5.index t (1 : Fin 4) * 64 + 1 * cc.val = cc.val; omega
    | ⟨2, _⟩ => show win0_5.index t (2 : Fin 4) * 64 + 1 * h.val = h.val; omega
    | ⟨3, _⟩ => show win0_5.index t (3 : Fin 4) * 64 + 1 * w.val = w.val; omega
  show Block.entry (iblk m c 0 t) (iblk m c 1 t) (iblk m c 2 t) (iblk m c 3 t) (iblk m c 4 t) b cc h w
    = Cert.Contrast.layer (V m c main_arg0) (V m c main_v1) (V m c main_v2) (V m c main_v3) (V m c main_v4)
        (((cfg0.win 5).blk t).view.emb (ix4 b cc h w))
  rw [eo, small1 m c t, small2 m c t, small3 m c t, small4 m c t]
  exact entry_eq_layer (iblk m c 0 t) (V m c main_arg0) _ _ _ _ b ⟨t.val * 4 + b.val, hb⟩
    (fun c' h' w' => input_block m c t b c' h' w' hb) cc h w

/-- An index of the array is in point t's block iff each coordinate is in the block's range on its axis. -/
theorem mem_blk (t : Fin cfg0.N) (i : S64x64x64x64.Idx) :
    i ∈ ((cfg0.win 5).blk t).view.set ↔ ∀ a : Fin 4, win0_5.index t a * S4x64x64x64.size a ≤ (i a).val
      ∧ (i a).val < win0_5.index t a * S4x64x64x64.size a + S4x64x64x64.size a := by
  show i ∈ ((View.whole main_v5).slice (win0_5.rect t)).set ↔ _
  rw [View.set_slice_whole, Rect.mem_set_unit]
  exact Iff.rfl

/-- The 16 blocks tile the array: image n is in the block of point n / 4. -/
theorem cover (i : S64x64x64x64.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 64 := (i 2).isLt
  have hi3 : (i 3).val < 64 := (i 3).isLt
  obtain ⟨t, q0⟩ := index_onto ⟨(i 0).val / 4, by omega⟩
  have q0' : win0_5.index t (0 : Fin 4) = (i 0).val / 4 := q0
  obtain ⟨-, -, -, -, -, o1, o2, o3, -⟩ := index_facts t
  refine ⟨t, flush0_5 t, ?_⟩
  rw [mem_blk]
  intro a
  match a with
  | ⟨0, _⟩ => show win0_5.index t (0 : Fin 4) * 4 ≤ (i 0).val ∧ (i 0).val < win0_5.index t (0 : Fin 4) * 4 + 4; omega
  | ⟨1, _⟩ => show win0_5.index t (1 : Fin 4) * 64 ≤ (i 1).val ∧ (i 1).val < win0_5.index t (1 : Fin 4) * 64 + 64; omega
  | ⟨2, _⟩ => show win0_5.index t (2 : Fin 4) * 64 ≤ (i 2).val ∧ (i 2).val < win0_5.index t (2 : Fin 4) * 64 + 64; omega
  | ⟨3, _⟩ => show win0_5.index t (3 : Fin 4) * 64 ≤ (i 3).val ∧ (i 3).val < win0_5.index t (3 : Fin 4) * 64 + 64; omega

/-- THE ARRAY after the run: the layer of the arrays the region found. -/
theorem final (c : Dev nD) : (dats m 0 c).arrAt 5 cfg0.N
    = Cert.Contrast.layer (V m c main_arg0) (V m c main_v1) (V m c main_v2) (V m c main_v3) (V m c main_v4) :=
  (dats m 0 c).arrAt_eq_of_cover 5 _ (fun t _ => flushed_eq m c t) cover

end Cert.KernelIdeal.Whole

end
-- ==== Proof.Operands.lean ====
/-
  The four small operands, as the host prepares them from the argument arrays — by the same operations in both programs:
  the first layer's weights [4, 64, 1, 1] with the two unit axes dropped and then transposed to [64, 4]; the first bias
  [4] as a row [1, 4]; the second layer's weights [64, 4, 1, 1] with the unit axes dropped; the second bias [64] as a
  column [64, 1].
-/
import proofs.«118975_g2000604311919893_pallasbulk_952_6_alg».proof.Proof.Layer

noncomputable section

namespace Cert.Contrast

open Idealize.ShloMosaic

abbrev S4x64x1x1 : Shape := ⟨4, ![4, 64, 1, 1]⟩
abbrev S4x64 : Shape := ⟨2, ![4, 64]⟩
abbrev S64x4x1x1 : Shape := ⟨4, ![64, 4, 1, 1]⟩

theorem c_4x64x1x1_4x64 : S4x64x1x1.ShapeCasts S4x64 := by decide
theorem t_4x64_64x4 : S4x64.Transposes [1, 0] S64x4 := by decide
theorem c_64x4x1x1_64x4 : S64x4x1x1.ShapeCasts S64x4 := by decide

def firstWeights (a : Vec Ideal S4x64x1x1 .f32) : Vec Ideal S64x4 .f32 :=
  transpose S64x4 [1, 0] (shapeCast S4x64 a c_4x64x1x1_4x64) t_4x64_64x4

def firstBias (a : Vec Ideal S4 .f32) : Vec Ideal S1x4 .f32 := shapeCast S1x4 a c_4_1x4

def secondWeights (a : Vec Ideal S64x4x1x1 .f32) : Vec Ideal S64x4 .f32 := shapeCast S64x4 a c_64x4x1x1_64x4

def secondBias (a : Vec Ideal S64 .f32) : Vec Ideal S64x1 .f32 := shapeCast S64x1 a c_64_64x1

/-- The layer as a function of the five argument arrays. -/
def result (x : Vec Ideal S64x64x64x64 .f32) (a1 : Vec Ideal S4x64x1x1 .f32) (a2 : Vec Ideal S4 .f32)
    (a3 : Vec Ideal S64x4x1x1 .f32) (a4 : Vec Ideal S64 .f32) : Vec Ideal S64x64x64x64 .f32 :=
  layer x (firstWeights a1) (firstBias a2) (secondWeights a3) (secondBias a4)

end Cert.Contrast

end
-- ==== Proof.KernelRun.lean ====
/-
  The first program's run, read: after it the result array is the layer (`Contrast.result`) of the five argument arrays,
  and the arguments are unchanged.  The region finds the first argument as launched and the four small operands as the
  host's relayouts of the other four.
-/
import proofs.«118975_g2000604311919893_pallasbulk_952_6_alg».proof.Proof.KernelArray
import proofs.«118975_g2000604311919893_pallasbulk_952_6_alg».proof.Proof.Operands
import Idealize.ShloMosaic.Lib.StableHlo.Run

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem operand1 (c : Dev nD) : (V m c main_v1 : S64x4.Idx → EReal)
    = Cert.Contrast.firstWeights (m ((c : Thread nD τ).loc main_arg1)) := by
  dsimp only [V, hostOps0]; after_results; rfl

theorem operand2 (c : Dev nD) : (V m c main_v2 : S1x4.Idx → EReal)
    = Cert.Contrast.firstBias (m ((c : Thread nD τ).loc main_arg2)) := by
  dsimp only [V, hostOps0]; after_results; rfl

theorem operand3 (c : Dev nD) : (V m c main_v3 : S64x4.Idx → EReal)
    = Cert.Contrast.secondWeights (m ((c : Thread nD τ).loc main_arg3)) := by
  dsimp only [V, hostOps0]; after_results; rfl

theorem operand4 (c : Dev nD) : (V m c main_v4 : S64x1.Idx → EReal)
    = Cert.Contrast.secondBias (m ((c : Thread nD τ).loc main_arg4)) := by
  dsimp only [V, hostOps0]; after_results; rfl

/-- The result array after the run, as a function of the argument arrays. -/
theorem final_args (c : Dev nD) : (dats m 0 c).arrAt 5 cfg0.N
    = Cert.Contrast.result (m ((c : Thread nD τ).loc main_arg0)) (m ((c : Thread nD τ).loc main_arg1))
        (m ((c : Thread nD τ).loc main_arg2)) (m ((c : Thread nD τ).loc main_arg3)) (m ((c : Thread nD τ).loc main_arg4)) := by
  rw [final m c, V_main_arg0 m c, operand1 m c, operand2 m c, operand3 m c, operand4 m c]
  rfl

/-- THE RUN: every weakly fair execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v5)
        = Cert.Contrast.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (Value.run_blocks m ρ)

end Cert.KernelIdeal.Whole

end
-- ==== Proof.RefBlock.lean ====
/-
  What the second program's body leaves at one grid point: it reads its one image (the block is 1 x 64 x 4096, a whole
  image with each channel as one row), computes the per-channel statistic in the two-pass form, the gate, and stores the
  image rescaled.  The one stored value is `Contrast.rescaled2` of the image read and of the four small operands.
-/
import proofs.«118975_g2000604311919893_pallasbulk_952_6_alg».proof.Proof.Gen.ReferenceIdeal.Frame
import proofs.«118975_g2000604311919893_pallasbulk_952_6_alg».proof.Proof.Contrast

noncomputable section

namespace Cert.ReferenceIdeal.Block

open Cert.ReferenceIdeal Cert.ReferenceIdeal.Gen Idealize.ShloMosaic Idealize.ShloMosaic.ValueIdx

/-- The stored value is the rescaled image. -/
theorem stored (X : Vec Ideal S1x64x4096 .f32) (x1 : Vec Ideal S64x4 .f32) (x2 : Vec Ideal S1x4 .f32)
    (x3 : Vec Ideal S64x4 .f32) (x4 : Vec Ideal S64x1 .f32) :
    k0_pay1 (F := Ideal) (k0_pay2 X x1 x2 x3 x4) (k0_pay3 (F := Ideal)) X = Cert.Contrast.rescaled2 X x1 x2 x3 x4 := rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- WHAT THE BODY LEAVES in the output block: the rescaled image. -/
theorem out_eq (x0 : Vec Ideal S1x64x4096 .f32) (x1 : Vec Ideal S64x4 .f32) (x2 : Vec Ideal S1x4 .f32)
    (x3 : Vec Ideal S64x4 .f32) (x4 : Vec Ideal S64x1 .f32) :
    out0_5 (F := Ideal) x0 x1 x2 x3 x4 = Cert.Contrast.rescaled2 x0 x1 x2 x3 x4 := by
  unfold out0_5
  rw [View.canon_unit_zero zeros3]
  simp only [View.ld_unit_zero (S := S1x64x4096) zeros3, View.ld_unit_zero (S := S64x4) zeros2,
    View.ld_unit_zero (S := S1x4) zeros2, View.ld_unit_zero (S := S64x1) zeros2]
  exact stored x0 x1 x2 x3 x4

end Cert.ReferenceIdeal.Block

end
-- ==== Proof.FlatLayer.lean ====
/-
  The same layer in the FLAT layout: the batch as 64 x 64 x 4096, each channel of each image one row of 4096 entries,
  the statistic taken in its two-pass form.  `FlatEq` shows that flattening the batch, applying this, and restoring the
  64 x 64 spatial layout is the layer of `Layer`, on finite data.
-/
import proofs.«118975_g2000604311919893_pallasbulk_952_6_alg».proof.Proof.Layer

noncomputable section

namespace Cert.Contrast

open Idealize.ShloMosaic Idealize.ShloMosaic.ValueIdx

/-- Image n of the flat batch, laid out channel x 4096. -/
def flatImage (x : Vec Ideal S64x64x4096 .f32) (n : Fin 64) : FVec Ideal S64x4096 .f32 :=
  fun j => x (ix3 n (j 0 : Fin 64) (j 1 : Fin 4096))

/-- The layer on the flat batch: every entry times the gate's value at its channel, the statistic (two-pass form) taken
    over its own image. -/
def flatLayer (x : Vec Ideal S64x64x4096 .f32) (w1 : Vec Ideal S64x4 .f32) (b1 : Vec Ideal S1x4 .f32)
    (w2 : Vec Ideal S64x4 .f32) (b2 : Vec Ideal S64x1 .f32) : Vec Ideal S64x64x4096 .f32 :=
  fun i => x i * gate (twoPass (flatImage x (i 0))) w1 b1 w2 b2 (ix2 (i 1 : Fin 64) (0 : Fin 1))

theorem flatLayer_apply (x : Vec Ideal S64x64x4096 .f32) (w1 : Vec Ideal S64x4 .f32) (b1 : Vec Ideal S1x4 .f32)
    (w2 : Vec Ideal S64x4 .f32) (b2 : Vec Ideal S64x1 .f32) (n c : Fin 64) (k : Fin 4096) :
    flatLayer x w1 b1 w2 b2 (ix3 n c k) = x (ix3 n c k) * gate (twoPass (flatImage x n)) w1 b1 w2 b2 (ix2 c (0 : Fin 1)) := rfl

end Cert.Contrast

end
-- ==== Proof.RefArray.lean ====
/-
  From blocks to the whole array, for the second program.

  Grid point t (of 64) handles image t: its input and output blocks are row t of the batch axis, whole on the channel
  axis and on the axis of 4096 spatial entries, and the four small operands are staged whole at every point.  So what
  point t writes back is block t of the flat layer's result on the whole batch, the 64 blocks tile the array, and after
  the run the output array IS the flat layer of the arrays the region found.
-/
import proofs.«118975_g2000604311919893_pallasbulk_952_6_alg».proof.Proof.Gen.ReferenceIdeal.Frame
import proofs.«118975_g2000604311919893_pallasbulk_952_6_alg».proof.Proof.RefBlock
import proofs.«118975_g2000604311919893_pallasbulk_952_6_alg».proof.Proof.FlatLayer
import proofs.«118975_g2000604311919893_pallasbulk_952_6_alg».proof.Proof.RescaledAt

noncomputable section

namespace Cert.ReferenceIdeal.Whole

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The index maps, decided over the 64 grid points: the big windows sit at batch block t, the small ones at the origin. -/
theorem index_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every batch block is some point's. -/
theorem index_onto : ∀ q : Fin 64, ∃ t : Fin cfg0.N, win0_5.index t (0 : Fin 3) = q.val :=
  (by decide +kernel : ∀ q : Fin 64, ∃ t : Fin grid0.N, win0_5.index t (0 : Fin 3) = q.val)

/-! ## The small operands are staged whole -/

theorem small1 (c : Dev nD) (t : Fin cfg0.N) : (iblk m c 1 t : S64x4.Idx → EReal) = V m c main_v2 := by
  obtain ⟨-, -, -, -, -, -, e0, e1, -⟩ := index_facts t
  funext y
  show V m c main_v2 (((cfg0.win 1).blk t).view.emb y) = V m c main_v2 y
  have e : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 4 + 1 * (y 1).val = (y 1).val; omega
  rw [e]

theorem small2 (c : Dev nD) (t : Fin cfg0.N) : (iblk m c 2 t : S1x4.Idx → EReal) = V m c main_v3 := by
  obtain ⟨-, -, -, -, -, -, -, -, e0, e1, -⟩ := index_facts t
  funext y
  show V m c main_v3 (((cfg0.win 2).blk t).view.emb y) = V m c main_v3 y
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 4 + 1 * (y 1).val = (y 1).val; omega
  rw [e]

theorem small3 (c : Dev nD) (t : Fin cfg0.N) : (iblk m c 3 t : S64x4.Idx → EReal) = V m c main_v4 := by
  obtain ⟨-, -, -, -, -, -, -, -, -, -, e0, e1, -⟩ := index_facts t
  funext y
  show V m c main_v4 (((cfg0.win 3).blk t).view.emb y) = V m c main_v4 y
  have e : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 4 + 1 * (y 1).val = (y 1).val; omega
  rw [e]

theorem small4 (c : Dev nD) (t : Fin cfg0.N) : (iblk m c 4 t : S64x1.Idx → EReal) = V m c main_v5 := by
  obtain ⟨-, -, -, -, -, -, -, -, -, -, -, -, e0, e1⟩ := index_facts t
  funext y
  show V m c main_v5 (((cfg0.win 4).blk t).view.emb y) = V m c main_v5 y
  have e : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 1 + 1 * (y 1).val = (y 1).val; omega
  rw [e]

/-! ## The input block is one image of the batch -/

theorem input_block (c : Dev nD) (t : Fin cfg0.N) (u : Fin 1) (cc : Fin 64) (k : Fin 4096) (ht : t.val < 64) :
    iblk m c 0 t (ix3 u cc k) = V m c main_v0 (ix3 (⟨t.val, ht⟩ : Fin 64) cc k) := by
  obtain ⟨e0, e1, e2, -⟩ := index_facts t
  show V m c main_v0 (((cfg0.win 0).blk t).view.emb (ix3 u cc k)) = _
  have e : ((cfg0.win 0).blk t).view.emb (ix3 u cc k) = ix3 (⟨t.val, ht⟩ : Fin 64) cc k := by
    funext a; apply Fin.ext
    match a with
    | ⟨0, _⟩ => show win0_0.index t (0 : Fin 3) * 1 + 1 * u.val = t.val; omega
    | ⟨1, _⟩ => show win0_0.index t (1 : Fin 3) * 64 + 1 * cc.val = cc.val; omega
    | ⟨2, _⟩ => show win0_0.index t (2 : Fin 3) * 4096 + 1 * k.val = k.val; omega
  rw [e]

/-- An entry of the rescaled block whose one image is image n of the batch is the flat layer's entry of image n. -/
theorem entry_eq_flat (x0 : Vec Ideal S1x64x4096 .f32) (A : Vec Ideal Cert.Contrast.S64x64x4096 .f32)
    (x1 : Vec Ideal S64x4 .f32) (x2 : Vec Ideal S1x4 .f32) (x3 : Vec Ideal S64x4 .f32) (x4 : Vec Ideal S64x1 .f32)
    (n : Fin 64) (hA : ∀ (cc : Fin 64) (k : Fin 4096), x0 (ix3 (0 : Fin 1) cc k) = A (ix3 n cc k))
    (u : Fin 1) (cc : Fin 64) (k : Fin 4096) :
    Cert.Contrast.rescaled2 x0 x1 x2 x3 x4 (ix3 u cc k) = Cert.Contrast.flatLayer A x1 x2 x3 x4 (ix3 n cc k) := by
  have hs : shapeCast Cert.Contrast.S64x4096 x0 Cert.Contrast.c_1x64x4096_64x4096 = Cert.Contrast.flatImage A n :=
    funext fun j => by
      obtain ⟨a, b, rfl⟩ : ∃ (a : Fin 64) (b : Fin 4096), j = ix2 a b := ⟨j 0, j 1, eq_ix2 j⟩
      exact (Cert.Contrast.cast2_apply x0 a b).trans (hA a b)
  rw [Cert.Contrast.rescaled2_apply, Cert.Contrast.flatLayer_apply, hA cc k, hs]

/-! ## What a point writes back, the cover, the array -/

/-- WHAT POINT t WRITES BACK is block t of the flat layer of the arrays the region found. -/
theorem flushed_eq (c : Dev nD) (t : Fin cfg0.N) :
    (dats m 0 c).flushed 5 t = ((cfg0.win 5).blk t).view.read (Elt Ideal)
      (Cert.Contrast.flatLayer (V m c main_v0) (V m c main_v2) (V m c main_v3) (V m c main_v4) (V m c main_v5)) := by
  show (cfg0.win 5).cut (grid0.coords t) ((dats m 0 c).after 5 t) = _
  rw [after0_5, Block.out_eq]
  obtain ⟨-, -, -, o0, o1, o2, -⟩ := index_facts t
  have ht : t.val < 64 := lt_of_lt_of_eq t.isLt N_0
  funext j
  obtain ⟨u, cc, k, rfl⟩ : ∃ (u : Fin 1) (cc : Fin 64) (k : Fin 4096), j = ix3 u cc k := ⟨j 0, j 1, j 2, eq_ix3 j⟩
  have eo : ((cfg0.win 5).blk t).view.emb (ix3 u cc k) = ix3 (⟨t.val, ht⟩ : Fin 64) cc k := by
    funext a; apply Fin.ext
    match a with
    | ⟨0, _⟩ => show win0_5.index t (0 : Fin 3) * 1 + 1 * u.val = t.val; omega
    | ⟨1, _⟩ => show win0_5.index t (1 : Fin 3) * 64 + 1 * cc.val = cc.val; omega
    | ⟨2, _⟩ => show win0_5.index t (2 : Fin 3) * 4096 + 1 * k.val = k.val; omega
  show Cert.Contrast.rescaled2 (iblk m c 0 t) (iblk m c 1 t) (iblk m c 2 t) (iblk m c 3 t) (iblk m c 4 t) (ix3 u cc k)
    = Cert.Contrast.flatLayer (V m c main_v0) (V m c main_v2) (V m c main_v3) (V m c main_v4) (V m c main_v5)
        (((cfg0.win 5).blk t).view.emb (ix3 u cc k))
  rw [eo, small1 m c t, small2 m c t, small3 m c t, small4 m c t]
  exact entry_eq_flat (iblk m c 0 t) (V m c main_v0) _ _ _ _ ⟨t.val, ht⟩
    (fun cc' k' => input_block m c t 0 cc' k' ht) u cc k

/-- An index of the array is in point t's block iff each coordinate is in the block's range on its axis. -/
theorem mem_blk (t : Fin cfg0.N) (i : S64x64x4096.Idx) :
    i ∈ ((cfg0.win 5).blk t).view.set ↔ ∀ a : Fin 3, win0_5.index t a * S1x64x4096.size a ≤ (i a).val
      ∧ (i a).val < win0_5.index t a * S1x64x4096.size a + S1x64x4096.size a := by
  show i ∈ ((View.whole main_v6).slice (win0_5.rect t)).set ↔ _
  rw [View.set_slice_whole, Rect.mem_set_unit]
  exact Iff.rfl

/-- The 64 blocks tile the array: image n is in the block of point n. -/
theorem cover (i : S64x64x4096.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 4096 := (i 2).isLt
  obtain ⟨t, q0⟩ := index_onto ⟨(i 0).val, hi0⟩
  have q0' : win0_5.index t (0 : Fin 3) = (i 0).val := q0
  obtain ⟨-, -, -, -, o1, o2, -⟩ := index_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 4096 ≤ (i 2).val ∧ (i 2).val < win0_5.index t (2 : Fin 3) * 4096 + 4096; omega

/-- THE ARRAY after the run: the flat layer of the arrays the region found. -/
theorem final (c : Dev nD) : (dats m 0 c).arrAt 5 cfg0.N
    = Cert.Contrast.flatLayer (V m c main_v0) (V m c main_v2) (V m c main_v3) (V m c main_v4) (V m c main_v5) :=
  (dats m 0 c).arrAt_eq_of_cover 5 _ (fun t _ => flushed_eq m c t) cover

end Cert.ReferenceIdeal.Whole

end
-- ==== Proof.LibVariance.lean ====
import Mathlib
import Idealize.ShloMosaic.PureOps.Ideal
import Idealize.ShloMosaic.PureOps.Ideal.Laws

noncomputable section

namespace Cert.LibVariance

open Idealize.ShloMosaic

/-- The f32 pattern `0x39800000` (sign `0`, biased exponent `115`, zero fraction) denotes
    `2^23 · 2^(115 - 127 - 23) = 2^(-12) = 1/4096`. -/
theorem ofBits_inv4096 : Ideal.ofBits .f32 0x39800000#32 = (((4096 : ℝ)⁻¹ : ℝ) : EReal) := by
  simp [Ideal.ofBits, Ideal.ieee, -EReal.coe_mul]; norm_num

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- The one-pass / two-pass variance identity. With `μ = a · Σ r` and `a · N = 1`:
    `a · Σ (r i - μ)² = a · Σ r i² - 2 μ (a · Σ r) + (a · N) μ² = a · Σ r i² - μ²`, and the left side is
    `a ≥ 0` times a sum of squares, hence nonnegative, so clamping the one-pass form at `0` changes nothing. -/
theorem onepass_eq_twopass {ι : Type*} [Fintype ι] (r : ι → ℝ) (a : ℝ) (ha : 0 ≤ a)
    (hcard : a * (Fintype.card ι : ℝ) = 1) :
    max ((∑ i, (r i : EReal) * (r i : EReal)) * (a : EReal)
        - ((∑ i, (r i : EReal)) * (a : EReal)) * ((∑ i, (r i : EReal)) * (a : EReal))) 0
      = (∑ i, ((r i : EReal) - (∑ j, (r j : EReal)) * (a : EReal))
          * ((r i : EReal) - (∑ j, (r j : EReal)) * (a : EReal))) * (a : EReal) := by
  -- the real identity
  have hreal : (∑ i, (r i - (∑ j, r j) * a) * (r i - (∑ j, r j) * a)) * a
      = (∑ i, r i * r i) * a - ((∑ i, r i) * a) * ((∑ i, r i) * a) := by
    set S : ℝ := ∑ j, r j with hS
    have h1 : (∑ i, (r i - S * a) * (r i - S * a))
        = (∑ i, r i * r i) - 2 * (S * a) * S + (Fintype.card ι : ℝ) * ((S * a) * (S * a)) := by
      have : ∀ i, (r i - S * a) * (r i - S * a)
          = r i * r i - 2 * (S * a) * r i + (S * a) * (S * a) := fun i => by ring
      simp only [this, Finset.sum_add_distrib, Finset.sum_sub_distrib, ← Finset.mul_sum,
        Finset.sum_const, Finset.card_univ, nsmul_eq_mul, ← hS]
      ring
    rw [h1]
    have h2 : (Fintype.card ι : ℝ) * a = 1 := by rw [mul_comm]; exact hcard
    linear_combination (S * a) * (S * a) * h2
  have hnonneg : 0 ≤ (∑ i, (r i - (∑ j, r j) * a) * (r i - (∑ j, r j) * a)) * a :=
    mul_nonneg (Finset.sum_nonneg fun i _ => mul_self_nonneg _) ha
  -- move the coercions out
  have hsum : (∑ j, (r j : EReal)) = ((∑ j, r j : ℝ) : EReal) := coe_sum Finset.univ r
  have hsq : (∑ i, (r i : EReal) * (r i : EReal)) = ((∑ i, r i * r i : ℝ) : EReal) := by
    refine Eq.trans ?_ (coe_sum Finset.univ _)
    refine Finset.sum_congr rfl fun i _ => ?_
    simp only [EReal.coe_mul]
  have hdev : (∑ i, ((r i : EReal) - ((∑ j, r j : ℝ) : EReal) * (a : EReal))
        * ((r i : EReal) - ((∑ j, r j : ℝ) : EReal) * (a : EReal)))
      = ((∑ i, (r i - (∑ j, r j) * a) * (r i - (∑ j, r j) * a) : ℝ) : EReal) := by
    refine Eq.trans ?_ (coe_sum Finset.univ _)
    refine Finset.sum_congr rfl fun i _ => ?_
    simp only [EReal.coe_mul, EReal.coe_sub]
  rw [hsum, hsq, hdev, ← EReal.coe_mul, ← EReal.coe_mul, ← EReal.coe_mul, ← EReal.coe_sub,
    ← EReal.coe_mul, ← hreal]
  exact max_eq_left (by exact_mod_cast hnonneg)

end Cert.LibVariance

end
-- ==== Proof.ContrastEq.lean ====
/-
  The one-pass and the two-pass per-channel statistics agree.

  A channel's 4096 entries are read either as a 64 x 64 block (entry (h, w)) or as one row (entry h * 64 + w).  Each
  statistic is read at a channel as an expression in plain sums over the channel; the row's sums are re-indexed over
  the block's positions; and for finite entries the two arguments of the square root are equal by the variance
  identity  a · Σ (r - μ)² = a · Σ r² - μ²  (μ = a · Σ r, a = 1/4096), a nonnegative number, so the clamp at 0 is idle.
-/
import proofs.«118975_g2000604311919893_pallasbulk_952_6_alg».proof.Proof.Contrast
import proofs.«118975_g2000604311919893_pallasbulk_952_6_alg».proof.Proof.LibVariance

noncomputable section

namespace Cert.Contrast

open Idealize.ShloMosaic Idealize.ShloMosaic.ValueIdx

/-- The two-axis sum: the sum over the indices of a 64 x 64 x 64 array whose first coordinate is `c` is the double sum
    over the other two coordinates. -/
theorem sum_channel3 (x : S64x64x64.Idx → EReal) (c : Fin 64) :
    (∑ i ∈ Finset.univ.filter (fun i => r_64x64x64_64.drop i = ix1 c), x i)
      = ∑ p : Fin 64 × Fin 64, x (ix3 c p.1 p.2) := by
  refine Finset.sum_nbij' (fun i => ((i 1 : Fin 64), (i 2 : Fin 64))) (fun p => ix3 c p.1 p.2) ?_ ?_ ?_ ?_ ?_
  · intro i _; exact Finset.mem_univ _
  · intro p _
    refine Finset.mem_filter.2 ⟨Finset.mem_univ _, ?_⟩
    funext b
    match b with
    | ⟨0, _⟩ => exact Fin.ext rfl
  · intro i hi
    have hj := (Finset.mem_filter.1 hi).2
    have h0 : (i 0 : Fin 64) = c := by
      have := congrFun hj 0
      exact Fin.ext (congrArg Fin.val this)
    rw [← h0]
    exact (eq_ix3 i).symm
  · intro p _; rfl
  · intro i hi
    have hj := (Finset.mem_filter.1 hi).2
    have h0 : (i 0 : Fin 64) = c := by
      have := congrFun hj 0
      exact Fin.ext (congrArg Fin.val this)
    rw [← h0]
    exact congrArg x (eq_ix3 i)

/-- A column of 64 read as a 64 x 1 x 1 block: the entry at `(c, a, b)` is the column's entry at `c`. -/
theorem cast_64_64x1x1 (v : FVec Ideal S64 .f32) (c : Fin 64) (a b : Fin 1) :
    shapeCast S64x1x1 v c_64_64x1x1 (ix3 c a b) = v (ix1 c) :=
  shapeCast_apply v c_64_64x1x1 _ _ (by
    have ha : a.val = 0 := by omega
    have hb : b.val = 0 := by omega
    rw [Shape.rowMajor_val_one, Shape.rowMajor_val_three]
    show c.val = (c.val * 1 + a.val) * 1 + b.val
    omega)

/-- A 64 x 1 x 1 block read as a 64 x 1 column: the entry at `(c, z)` is the block's entry at `(c, 0, 0)`. -/
theorem cast_64x1x1_64x1 (v : FVec Ideal S64x1x1 .f32) (c : Fin 64) (z : Fin 1) :
    shapeCast S64x1 v c_64x1x1_64x1 (ix2 c z) = v (ix3 c (0 : Fin 1) (0 : Fin 1)) :=
  shapeCast_apply v c_64x1x1_64x1 _ _ (by
    have hz : z.val = 0 := by omega
    rw [Shape.rowMajor_val_three, Shape.rowMajor_val_two]
    show (c.val * 1 + 0) * 1 + 0 = c.val * 1 + z.val
    omega)

/-- A column of 64 read as a 64 x 1 array: the entry at `(c, z)` is the column's entry at `c`. -/
theorem cast_64_64x1 (v : FVec Ideal S64 .f32) (c : Fin 64) (z : Fin 1) :
    shapeCast S64x1 v c_64_64x1 (ix2 c z) = v (ix1 c) :=
  shapeCast_apply v c_64_64x1 _ _ (by
    have hz : z.val = 0 := by omega
    rw [Shape.rowMajor_val_one, Shape.rowMajor_val_two]
    show c.val = c.val * 1 + z.val
    omega)

/-- A square root at an index is the square root of the element. -/
theorem sqrt_apply {s : Shape} {φ : FTy} (v : FVec Ideal s φ) (i : s.Idx) : sqrt v i = Ideal.sqrt (v i) := rfl

/-- The reduction over the last two axes of a 64 x 64 x 64 array, read at channel `c`. -/
theorem reduce3_apply (x : FVec Ideal S64x64x64 .f32) (c : Fin 64) :
    multiReduction (F := Ideal) .add [1, 2] S64 x 0x00000000#32 r_64x64x64_64 (.inl rfl) rfl (ix1 c)
      = ∑ p : Fin 64 × Fin 64, x (ix3 c p.1 p.2) :=
  sum_channel3 x c

/-- The one-pass statistic read at channel `c`. -/
theorem onePass_apply (x : FVec Ideal S64x64x64 .f32) (c : Fin 64) (z : Fin 1) :
    onePass x (ix2 c z)
      = Ideal.sqrt (max
          ((∑ p : Fin 64 × Fin 64, x (ix3 c p.1 p.2) * x (ix3 c p.1 p.2)) * Ideal.ofBits .f32 0x39800000#32
            - ((∑ p : Fin 64 × Fin 64, x (ix3 c p.1 p.2)) * Ideal.ofBits .f32 0x39800000#32)
              * ((∑ p : Fin 64 × Fin 64, x (ix3 c p.1 p.2)) * Ideal.ofBits .f32 0x39800000#32))
          (Ideal.ofBits .f32 0x00000000#32))
        + (∑ p : Fin 64 × Fin 64, x (ix3 c p.1 p.2)) * Ideal.ofBits .f32 0x39800000#32 := by
  unfold onePass
  refine (cast_64x1x1_64x1 _ c z).trans ?_
  simp only [addf_apply, mulf_apply, subf_apply, maximumf_apply, broadcast_apply, sqrt_apply, cast_64_64x1x1]
  rw [reduce3_apply x c, reduce3_apply (mulf x x) c]
  rfl

/-- The reduced index `c` of a 64 x 4096 array with the coordinate `k` inserted on the reduced axis is `(c, k)`. -/
theorem lift_64x4096 (c : Fin 64) (k : Fin 4096) : r_64x4096_64.lift (ix1 c) k = ix2 c k := by
  funext a
  match a with
  | ⟨0, _⟩ => exact Fin.ext rfl
  | ⟨1, _⟩ => exact Fin.ext rfl

/-- The reduction over the last axis of a 64 x 4096 array, read at channel `c`. -/
theorem reduce2_apply (x : FVec Ideal S64x4096 .f32) (c : Fin 64) :
    multiReduction (F := Ideal) .add [1] S64 x 0x00000000#32 r_64x4096_64 (.inl rfl) rfl (ix1 c)
      = ∑ k : Fin 4096, x (ix2 c k) := by
  refine (Ideal.multiReduction_add_single x _ r_64x4096_64 (.inl rfl) rfl (ix1 c)).trans ?_
  exact Finset.sum_congr rfl fun k _ => congrArg x (lift_64x4096 c k)

/-- A 64 x 1 column broadcast along 4096 entries reads, at `(c, k)`, the column's entry at `(c, 0)`. -/
theorem bcast_64x1_64x4096 (v : FVec Ideal S64x1 .f32) (c : Fin 64) (k : Fin 4096) :
    broadcastTo S64x4096 v b_64x1_64x4096 (ix2 c k) = v (ix2 c (0 : Fin 1)) :=
  broadcastTo_apply v b_64x1_64x4096 _ _ (by
    intro a
    match a with
    | ⟨0, _⟩ => rfl
    | ⟨1, _⟩ => rfl)

/-- The two-pass statistic read at channel `c`. -/
theorem twoPass_apply (x : FVec Ideal S64x4096 .f32) (c : Fin 64) (z : Fin 1) :
    twoPass x (ix2 c z)
      = Ideal.sqrt ((∑ k : Fin 4096,
            (x (ix2 c k) - (∑ k' : Fin 4096, x (ix2 c k')) * Ideal.ofBits .f32 0x39800000#32)
              * (x (ix2 c k) - (∑ k' : Fin 4096, x (ix2 c k')) * Ideal.ofBits .f32 0x39800000#32))
          * Ideal.ofBits .f32 0x39800000#32)
        + (∑ k : Fin 4096, x (ix2 c k)) * Ideal.ofBits .f32 0x39800000#32 := by
  unfold twoPass
  simp only [addf_apply, mulf_apply, subf_apply, broadcast_apply, sqrt_apply, cast_64_64x1]
  rw [reduce2_apply, reduce2_apply]
  simp only [addf_apply, mulf_apply, subf_apply, broadcast_apply, sqrt_apply, cast_64_64x1, bcast_64x1_64x4096]
  rw [reduce2_apply]
  rfl

/-- The position of entry `(h, w)` of a 64 x 64 channel in the same channel laid out as one row of 4096: `h * 64 + w`. -/
def chanEquiv : Fin 64 × Fin 64 ≃ Fin 4096 where
  toFun p := ⟨p.1.val * 64 + p.2.val, by omega⟩
  invFun k := (⟨k.val / 64, by omega⟩, ⟨k.val % 64, by omega⟩)
  left_inv p := by
    obtain ⟨h, w⟩ := p
    refine Prod.ext (Fin.ext ?_) (Fin.ext ?_)
    · show (h.val * 64 + w.val) / 64 = h.val
      omega
    · show (h.val * 64 + w.val) % 64 = w.val
      omega
  right_inv k := Fin.ext (by
    show k.val / 64 * 64 + k.val % 64 = k.val
    omega)

/-- A sum over the row of 4096 is the sum over the 64 x 64 positions of the terms it matches. -/
theorem sum_row_eq (f : Fin 4096 → EReal) (g : Fin 64 × Fin 64 → EReal) (h : ∀ p, f (chanEquiv p) = g p) :
    ∑ k, f k = ∑ p, g p :=
  (Equiv.sum_comp chanEquiv f).symm.trans (Finset.sum_congr rfl fun p _ => h p)

/-- The two statistics agree when the two layouts hold the same finite numbers: with `r` the channel's entries as reals
    and `a = 1/4096`, the two-pass form is `sqrt (a · Σ (r - μ)²) + μ` and the one-pass form
    `sqrt (max (a · Σ r² - μ²) 0) + μ`, `μ = a · Σ r`, and the two arguments of the square root are equal
    (the variance identity, `a` times the number of entries being `1`). -/
theorem twoPass_eq_onePass (x3 : FVec Ideal S64x64x64 .f32) (x2 : FVec Ideal S64x4096 .f32)
    (hx : ∀ (c h w : Fin 64), x2 (ix2 c ⟨h.val * 64 + w.val, by omega⟩) = x3 (ix3 c h w))
    (hfin : ∀ i, ∃ r : ℝ, x3 i = (r : EReal)) : twoPass x2 = onePass x3 := by
  choose r hr using hfin
  funext j
  obtain ⟨c, z, rfl⟩ : ∃ (c : Fin 64) (z : Fin 1), j = ix2 c z := ⟨j 0, j 1, eq_ix2 j⟩
  rw [twoPass_apply, onePass_apply]
  have hrow : ∀ p : Fin 64 × Fin 64, x2 (ix2 c (chanEquiv p)) = ((r (ix3 c p.1 p.2) : ℝ) : EReal) :=
    fun p => (hx c p.1 p.2).trans (hr _)
  have hS : (∑ k : Fin 4096, x2 (ix2 c k)) = ∑ p : Fin 64 × Fin 64, ((r (ix3 c p.1 p.2) : ℝ) : EReal) :=
    sum_row_eq _ _ hrow
  have hD : ∀ M : EReal, (∑ k : Fin 4096, (x2 (ix2 c k) - M) * (x2 (ix2 c k) - M))
      = ∑ p : Fin 64 × Fin 64, (((r (ix3 c p.1 p.2) : ℝ) : EReal) - M) * (((r (ix3 c p.1 p.2) : ℝ) : EReal) - M) :=
    fun M => sum_row_eq _ _ fun p => by rw [hrow p]
  have key := LibVariance.onepass_eq_twopass (fun p : Fin 64 × Fin 64 => r (ix3 c p.1 p.2)) (4096 : ℝ)⁻¹
    (by positivity) (by rw [Fintype.card_prod, Fintype.card_fin]; norm_num)
  rw [hS, hD]
  simp only [hr]
  rw [LibVariance.ofBits_inv4096, Ideal.ofBits_zero_f32, key]

end Cert.Contrast

end
-- ==== Proof.FlatEq.lean ====
/-
  Flattening the batch, applying the layer in the flat layout and restoring the spatial axes is the layer.

  The reshape between [64, 64, 64, 64] and [64, 64, 4096] sends spatial position (h, w) to h * 64 + w and moves no entry
  to another image or channel.  So image n of the flattened batch holds, channel by channel, the same numbers as image n
  of the batch, one row of 4096 in place of a 64 x 64 block; on finite data the two-pass statistic of the one is the
  one-pass statistic of the other, the gate is fed the same column, and every entry is multiplied by the same value.
-/
import proofs.«118975_g2000604311919893_pallasbulk_952_6_alg».proof.Proof.FlatLayer
import proofs.«118975_g2000604311919893_pallasbulk_952_6_alg».proof.Proof.ContrastEq
import proofs.«118975_g2000604311919893_pallasbulk_952_6_alg».proof.Proof.RescaledAt

noncomputable section

namespace Cert.Contrast

open Idealize.ShloMosaic Idealize.ShloMosaic.ValueIdx

/-- The statistics agree image by image: the two-pass statistic of image `n` of the flattened batch is the one-pass
    statistic of image `n` of the batch, on finite data. -/
theorem stat_flat_eq (x : Vec Ideal S64x64x64x64 .f32) (hfin : ∀ i, ∃ r : ℝ, x i = (r : EReal))
    (hA : S64x64x64x64.ShapeCasts S64x64x4096) (n : Fin 64) :
    twoPass (flatImage (shapeCast S64x64x4096 x hA) n) = onePass (image x n) :=
  twoPass_eq_onePass (image x n) (flatImage (shapeCast S64x64x4096 x hA) n)
    (fun c h w => flatten_apply x hA n c h w)
    (fun _ => hfin _)

/-- Flatten the spatial axes of the batch, apply the layer in the flat layout, restore the spatial axes: on finite data
    this is the layer. -/
theorem flat_eq_layer (x : Vec Ideal S64x64x64x64 .f32) (hfin : ∀ i, ∃ r : ℝ, x i = (r : EReal))
    (w1 : Vec Ideal S64x4 .f32) (b1 : Vec Ideal S1x4 .f32) (w2 : Vec Ideal S64x4 .f32) (b2 : Vec Ideal S64x1 .f32)
    (hA : S64x64x64x64.ShapeCasts S64x64x4096) (hB : S64x64x4096.ShapeCasts S64x64x64x64) :
    shapeCast S64x64x64x64 (flatLayer (shapeCast S64x64x4096 x hA) w1 b1 w2 b2) hB = layer x w1 b1 w2 b2 := by
  funext i
  obtain ⟨n, c, h, w, rfl⟩ : ∃ n c h w : Fin 64, i = ix4 n c h w := ⟨i 0, i 1, i 2, i 3, eq_ix4 i⟩
  refine (unflatten_apply _ hB n c h w).trans ?_
  refine (flatLayer_apply _ w1 b1 w2 b2 n c _).trans ?_
  refine Eq.trans ?_ (layer_apply x w1 b1 w2 b2 n c h w).symm
  rw [flatten_apply x hA n c h w, stat_flat_eq x hfin hA n]

end Cert.Contrast

end
-- ==== Proof.RefRun.lean ====
/-
  The second program's run, read: the host flattens the spatial axes of the batch and prepares the four small operands,
  the region applies the layer in the flat layout image by image, and the host restores the spatial axes.  On finite data
  flatten / apply / restore is the layer (`Contrast.flat_eq_layer`), so after the run the result array is
  `Contrast.result` of the five argument arrays, and the arguments are unchanged.
-/
import proofs.«118975_g2000604311919893_pallasbulk_952_6_alg».proof.Proof.RefArray
import proofs.«118975_g2000604311919893_pallasbulk_952_6_alg».proof.Proof.Operands
import proofs.«118975_g2000604311919893_pallasbulk_952_6_alg».proof.Proof.FlatEq
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-! ## What the region finds: the host's relayouts of the arguments -/

theorem operand0 (c : Dev nD) : (V m c main_v0 : S64x64x4096.Idx → EReal)
    = shapeCast S64x64x4096 (m ((c : Thread nD τ).loc main_arg0)) shapeCasts_S64x64x64x64_S64x64x4096 := by
  show StableHlo.after hostOps0 (fun b => m (c, b)) (Proc.devRef .tc main_v0) = _; after_results; rfl

theorem operand1 (c : Dev nD) : (V m c main_v2 : S64x4.Idx → EReal)
    = Cert.Contrast.firstWeights (m ((c : Thread nD τ).loc main_arg1)) := by
  show StableHlo.after hostOps0 (fun b => m (c, b)) (Proc.devRef .tc main_v2) = _; after_results; rfl

theorem operand2 (c : Dev nD) : (V m c main_v3 : S1x4.Idx → EReal)
    = Cert.Contrast.firstBias (m ((c : Thread nD τ).loc main_arg2)) := by
  show StableHlo.after hostOps0 (fun b => m (c, b)) (Proc.devRef .tc main_v3) = _; after_results; rfl

theorem operand3 (c : Dev nD) : (V m c main_v4 : S64x4.Idx → EReal)
    = Cert.Contrast.secondWeights (m ((c : Thread nD τ).loc main_arg3)) := by
  show StableHlo.after hostOps0 (fun b => m (c, b)) (Proc.devRef .tc main_v4) = _; after_results; rfl

theorem operand4 (c : Dev nD) : (V m c main_v5 : S64x1.Idx → EReal)
    = Cert.Contrast.secondBias (m ((c : Thread nD τ).loc main_arg4)) := by
  show StableHlo.after hostOps0 (fun b => m (c, b)) (Proc.devRef .tc main_v5) = _; after_results; rfl

/-! ## What the host leaves after the region: the region's array with its spatial axes restored -/

theorem tail_result (c : Dev nD) : Pipeline.afterTail₀ cfgs (dats m) 0 (V0 m) [hostOps1] c main_v7
    = shapeCast S64x64x64x64 ((dats m 0 c).arrAt 5 cfg0.N) shapeCasts_S64x64x4096_S64x64x64x64 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 5 cfg0.N :=
    Pipeline.withArrays_arr spec0 launch0.win.arr_inj c (V0 m c) (fun w => (dats m 0 c).arrAt w cfg0.N) 5
  show shapeCast S64x64x64x64 (Pipeline.withArrays (cfgs 0).spec c (V0 m c) (fun w => (dats m 0 c).arrAt w (cfgs 0).N) (Proc.devRef .tc main_v6)) shapeCasts_S64x64x4096_S64x64x64x64 = _
  rw [e]

/-- The result array after the run, as a function of the argument arrays, when the first argument is finite. -/
theorem final_args (c : Dev nD) (hfin : ∀ i, ∃ r : ℝ, m ((c : Thread nD τ).loc main_arg0) i = (r : EReal)) :
    Pipeline.afterTail₀ cfgs (dats m) 0 (V0 m) [hostOps1] c main_v7
      = Cert.Contrast.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_result m c, final m c, operand0 m c, operand1 m c, operand2 m c, operand3 m c, operand4 m c]
  exact Cert.Contrast.flat_eq_layer _ hfin _ _ _ _ _ _

/-- THE RUN: every weakly fair execution ends with the result array at the layer of the arguments, the arguments unchanged. -/
theorem run (hfin : ∀ (c : Dev nD) i, ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v7)
        = Cert.Contrast.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v7 (Pipeline.mem_restRefs_of main_v7 (by decide) (by decide))).trans (final_args m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Whole

end
-- ==== Proof.FiniteInput.lean ====
import proofs.«118975_g2000604311919893_pallasbulk_952_6_alg».proof.Defs
import proofs.«118975_g2000604311919893_pallasbulk_952_6_alg».proof.Proof.Gen.Pre_finite_inputs
import Idealize.ShloMosaic.Lib.ReduceAll
import Idealize.ShloMosaic.Lib.ValueIdx

/-!
  The precondition of the certificate is a conjunction of five conditions, one per argument array, each saying
  that every entry a of the array satisfies |a| < +∞. Over the extended reals |a| is max a (-a), so the condition
  excludes exactly a = ⊤ and a = ⊥: every entry is a real number. This module reads that fact off the first
  argument array, first for the precondition's function and then for the memories the two programs start from.
-/

noncomputable section

namespace Cert.FiniteInput

open Idealize.ShloMosaic Idealize.SL.Sem

/-- The pattern 0x7F800000 (sign 0, exponent all ones, significand 0) denotes +∞. -/
theorem ofBits_inf : Ideal.ofBits .f32 0x7F800000#32 = (⊤ : EReal) := by
  simp [Ideal.ofBits, Ideal.ieee]

/-- An extended real a with max a (-a) < ⊤ is a real number: at a = ⊤ the maximum is ⊤, at a = ⊥ it is -⊥ = ⊤. -/
theorem real_of_abs_lt_top (a : EReal) (h : max a (-a) < ⊤) : ∃ r : ℝ, a = (r : EReal) := by
  induction a using EReal.rec with
  | bot => simp at h
  | coe r => exact ⟨r, rfl⟩
  | top => simp at h

/-- One bit made from a decided proposition is 1 exactly when the proposition holds. -/
theorem ofBool_decide_eq_one (p : Prop) [Decidable p] : BitVec.ofBool (decide p) = 1#1 ↔ p := by
  by_cases hp : p <;> simp [hp]

/-- The comparison |a| < +∞ at the extended reals, answered 1, says a is a real number. -/
theorem real_of_cmp (a : EReal)
    (h : Ideal.cmp .olt (max a (-a)) (Ideal.ofBits .f32 0x7F800000#32) = 1#1) : ∃ r : ℝ, a = (r : EReal) := by
  rw [ofBits_inf] at h
  unfold Ideal.cmp at h
  exact real_of_abs_lt_top a ((ofBool_decide_eq_one _).1 h)

/-- The rank-0 shape has one index. -/
instance : Subsingleton Cert.Pre_finite_inputs.S_.Idx := ⟨fun a b => funext fun d => d.elim0⟩

/-- The precondition's function is all ones only if every entry of its first argument is a real number. -/
theorem arg0_real [Cert.Pre_finite_inputs.Facts]
    (x : FVec Ideal Cert.Pre_finite_inputs.S64x64x64x64 .f32) (w1 : FVec Ideal Cert.Pre_finite_inputs.S4x64x1x1 .f32)
    (b1 : FVec Ideal Cert.Pre_finite_inputs.S4 .f32) (w2 : FVec Ideal Cert.Pre_finite_inputs.S64x4x1x1 .f32)
    (b2 : FVec Ideal Cert.Pre_finite_inputs.S64 .f32)
    (h : Cert.Pre_finite_inputs.fn (F := Ideal) x w1 b1 w2 b2 = (fun _ => 1#1)) : ∀ i, ∃ r : ℝ, x i = (r : EReal) := by
  intro i
  have e := congrFun h ValueIdx.ix0
  dsimp only [Cert.Pre_finite_inputs.fn, Cert.Pre_finite_inputs.fn_part1] at e
  simp only [andi, IntOp.andi_eq_one] at e
  obtain ⟨⟨⟨⟨h0, -⟩, -⟩, -⟩, -⟩ := e
  -- the first condition is the conjunction over all entries of "|x i| < +∞"
  have hi := Host.reduce_andi_all _ _ _ _ _ h0 i
  exact real_of_cmp (x i) hi

/-- Under the precondition, every entry of the first argument array of the first program's memory is a real number. -/
theorem kernel_arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  arg0_real _ _ _ _ _ (h c)

/-- Under the precondition, every entry of the first argument array of the second program's memory is a real number. -/
theorem reference_arg0_real [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, ∃ r : ℝ, m ((c.tc : Thread Cert.ReferenceIdeal.nD Cert.ReferenceIdeal.τ).loc Cert.ReferenceIdeal.main_arg0) i = (r : EReal) :=
  arg0_real _ _ _ _ _ (h c)

end Cert.FiniteInput

end
-- ==== Proof.lean ====
/-
  The channel-attention layer in two programs, equal on finite inputs.

  Both programs take a batch x : [64, 64, 64, 64] (image, channel, 64 x 64 spatial entries), first-layer weights
  [4, 64, 1, 1] and bias [4], second-layer weights [64, 4, 1, 1] and bias [64], and return, for every image n and channel c,
  the 4096 entries of that channel multiplied by one number: the gate's value at c, where the gate is fed the per-channel
  statistic  y c = sqrt (var c) + mean c  of image n.

  They differ in two ways.  (1) Layout: the first program works on the batch as it is, four images per grid point; the
  second flattens the two spatial axes to one row of 4096 entries per channel, works one image per grid point, and restores
  the spatial axes at the end.  (2) The variance: the first takes it in ONE pass, max (E[x^2] - mean^2) 0, the second in TWO,
  E[(x - mean)^2].  Over the reals these agree — expanding the square gives E[x^2] - 2 mean E[x] + mean^2 = E[x^2] - mean^2,
  a mean of squares and therefore nonnegative, so the clamp at 0 is the identity — but the expansion distributes a product
  over a difference, which fails at the infinities of the extended reals: this is where the precondition (every input
  finite) is used, and only for the first argument; the weights and biases pass through the gate untouched on both sides.

  The modules:  Contrast (the gate, the two statistics and one image rescaled, as vector terms), LibVariance (the variance
  identity on the extended reals), ContrastEq (the two statistics are the same column on finite data), RescaledAt (an image
  rescaled, read entry by entry), Layer / FlatLayer / Operands (the layer as one function of the arguments, in both
  layouts), FlatEq (flatten, apply, restore is the layer), KernelBlock / KernelArray / KernelRun and RefBlock / RefArray /
  RefRun (each program's grid points write the blocks of that function, the blocks tile the array, so each run ends at it),
  FiniteInput (the precondition makes every entry of the batch a real number).
-/
import proofs.«118975_g2000604311919893_pallasbulk_952_6_alg».proof.Defs
import proofs.«118975_g2000604311919893_pallasbulk_952_6_alg».proof.Proof.Gen.Kernel
import proofs.«118975_g2000604311919893_pallasbulk_952_6_alg».proof.Proof.Gen.Kernel.Skeleton
import proofs.«118975_g2000604311919893_pallasbulk_952_6_alg».proof.Proof.Gen.Kernel.Launch
import proofs.«118975_g2000604311919893_pallasbulk_952_6_alg».proof.Proof.Gen.Kernel.Points
import proofs.«118975_g2000604311919893_pallasbulk_952_6_alg».proof.Proof.Gen.Kernel.Frame
import proofs.«118975_g2000604311919893_pallasbulk_952_6_alg».proof.Proof.Gen.KernelIdeal
import proofs.«118975_g2000604311919893_pallasbulk_952_6_alg».proof.Proof.Gen.KernelIdeal.Skeleton
import proofs.«118975_g2000604311919893_pallasbulk_952_6_alg».proof.Proof.Gen.KernelIdeal.Launch
import proofs.«118975_g2000604311919893_pallasbulk_952_6_alg».proof.Proof.Gen.KernelIdeal.Points
import proofs.«118975_g2000604311919893_pallasbulk_952_6_alg».proof.Proof.Gen.KernelIdeal.Frame
import proofs.«118975_g2000604311919893_pallasbulk_952_6_alg».proof.Proof.Gen.ReferenceIdeal
import proofs.«118975_g2000604311919893_pallasbulk_952_6_alg».proof.Proof.Gen.ReferenceIdeal.Skeleton
import proofs.«118975_g2000604311919893_pallasbulk_952_6_alg».proof.Proof.Gen.ReferenceIdeal.Launch
import proofs.«118975_g2000604311919893_pallasbulk_952_6_alg».proof.Proof.Gen.ReferenceIdeal.Points
import proofs.«118975_g2000604311919893_pallasbulk_952_6_alg».proof.Proof.Gen.ReferenceIdeal.Frame
import proofs.«118975_g2000604311919893_pallasbulk_952_6_alg».proof.Proof.Gen.Pre_finite_inputs
import proofs.«118975_g2000604311919893_pallasbulk_952_6_alg».proof.Proof.Gen.KernelIdeal.Value
import proofs.«118975_g2000604311919893_pallasbulk_952_6_alg».proof.Proof.KernelRun
import proofs.«118975_g2000604311919893_pallasbulk_952_6_alg».proof.Proof.RefRun
import proofs.«118975_g2000604311919893_pallasbulk_952_6_alg».proof.Proof.FiniteInput
import Idealize.ShloMosaic.Adequacy
import Idealize.ShloMosaic.Init

noncomputable section

namespace Cert.Proof

open Idealize.ShloMosaic Idealize.SL.Sem

/-- The first program as printed runs to the end, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the second program. -/
theorem frame_referenceIdeal : Cert.frame_ReferenceIdeal := fun m ρ _ => Cert.ReferenceIdeal.Gen.frame m ρ

/-- Read over the extended reals from memories that agree on the five arguments, both programs end with the result array
    at `Contrast.result` of those arguments: the first always, the second because the precondition makes the batch finite. -/
theorem algebraic : Cert.algebraic_KernelIdeal_ReferenceIdeal := by
  intro m ρ m' ρ' hpre hagree
  have hfin : ∀ (c : Dev Cert.ReferenceIdeal.nD) i, ∃ r : ℝ,
      m' ((c.tc : Thread Cert.ReferenceIdeal.nD Cert.ReferenceIdeal.τ).loc Cert.ReferenceIdeal.main_arg0) i = (r : EReal) := by
    intro c i
    rw [(hagree c).1]
    exact Cert.FiniteInput.kernel_arg0_real m hpre c i
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ' hfin)
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
